-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S8192x3 : Shape := ⟨2, ![8192, 3]⟩
abbrev S8192x8192 : Shape := ⟨2, ![8192, 8192]⟩
abbrev S32 : Shape := ⟨1, ![32]⟩
abbrev S3x1 : Shape := ⟨2, ![3, 1]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel
  bcast_S_S8192x3 : S_.BroadcastsInDim S8192x3 (![] : Fin 0 → Fin S8192x3.rank)
  reducesTo_S8192x3_S_d0_1 : S8192x3.ReducesTo [0, 1] S_
  bcast_S_S32 : S_.BroadcastsInDim S32 (![] : Fin 0 → Fin S32.rank)
  reducesTo_S32_S_d0 : S32.ReducesTo [0] S_
  bcast_S_S3x1 : S_.BroadcastsInDim S3x1 (![] : Fin 0 → Fin S3x1.rank)
  reducesTo_S3x1_S_d0_1 : S3x1.ReducesTo [0, 1] S_

variable [Facts]

def fn_part1 {F : FTy → Type} [FloatOps F] (main_v13 : IVec S_ 1) (main_v16 : IVec S3x1 1) : IVec S_ 1 :=
  let main_c_5 : IVec S_ 1 := constantI S_ 1 1#1
  let main_v17 : IVec S_ 1 := (fun x v => Host.reduce IntOp.andi x v reducesTo_S3x1_S_d0_1 h_S_) main_v16 main_c_5
  let main_v18 : IVec S_ 1 := andi main_v13 main_v17
  main_v18

def fn {F : FTy → Type} [FloatOps F] (main_arg0 : FVec F S8192 .f32) (main_arg1 : FVec F S8192x3 .f32) (main_arg2 : IVec S8192x8192 32) (main_arg3 : FVec F S32 .f32) (main_arg4 : FVec F S3x1 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192x3 .f32 := Host.absf main_arg1
  let main_cst_0 : FVec F S_ .f32 := constant S_ .f32 0x7F800000#32
  let main_v5 : FVec F S8192x3 .f32 := broadcastInDim S8192x3 ![] bcast_S_S8192x3 main_cst_0
  let main_v6 : IVec S8192x3 1 := cmpf .olt main_v4 main_v5
  let main_c_1 : IVec S_ 1 := constantI S_ 1 1#1
  let main_v7 : IVec S_ 1 := (fun x v => Host.reduce IntOp.andi x v reducesTo_S8192x3_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S3x1 .f32 := Host.absf main_arg4
  let main_cst_4 : FVec F S_ .f32 := constant S_ .f32 0x7F800000#32
  let main_v15 : FVec F S3x1 .f32 := broadcastInDim S3x1 ![] bcast_S_S3x1 main_cst_4
  let main_v16 : IVec S3x1 1 := cmpf .olt main_v14 main_v15
  fn_part1 (F := F) main_v13 main_v16
-- ==== Kernel.lean ====
abbrev S8192 : Shape := ⟨1, ![8192]⟩
abbrev S8192x3 : Shape := ⟨2, ![8192, 3]⟩
abbrev S8192x8192 : Shape := ⟨2, ![8192, 8192]⟩
abbrev S32 : Shape := ⟨1, ![32]⟩
abbrev S3x1 : Shape := ⟨2, ![3, 1]⟩
abbrev S3 : Shape := ⟨1, ![3]⟩
abbrev S1x3 : Shape := ⟨2, ![1, 3]⟩
abbrev S_ : Shape := ⟨0, ![]⟩
abbrev S3x8192 : Shape := ⟨2, ![3, 8192]⟩
abbrev S8192x1 : Shape := ⟨2, ![8192, 1]⟩
abbrev S1x8192 : Shape := ⟨2, ![1, 8192]⟩
abbrev S512x3 : Shape := ⟨2, ![512, 3]⟩
abbrev S3x1024 : Shape := ⟨2, ![3, 1024]⟩
abbrev S512x1 : Shape := ⟨2, ![512, 1]⟩
abbrev S1x1024 : Shape := ⟨2, ![1, 1024]⟩
abbrev S512x1024 : Shape := ⟨2, ![512, 1024]⟩
abbrev S512 : Shape := ⟨1, ![512]⟩

abbrev nBuf : Space → Nat
  | .hbm => 27
  | .vmem => 13
  | .smem => 0
  | _ => 0

abbrev bufTy : (tb : Table) → Fin (tcTables nBuf tb) → BufTy
  | .hbm, ⟨0, _⟩ => ⟨S8192, .f32⟩
  | .hbm, ⟨1, _⟩ => ⟨S8192x3, .f32⟩
  | .hbm, ⟨2, _⟩ => ⟨S8192x8192, .i32⟩
  | .hbm, ⟨3, _⟩ => ⟨S32, .f32⟩
  | .hbm, ⟨4, _⟩ => ⟨S3x1, .f32⟩
  | .hbm, ⟨5, _⟩ => ⟨S3, .f32⟩
  | .hbm, ⟨6, _⟩ => ⟨S1x3, .f32⟩
  | .hbm, ⟨7, _⟩ => ⟨S8192x3, .f32⟩
  | .hbm, ⟨8, _⟩ => ⟨S8192x3, .f32⟩
  | .hbm, ⟨9, _⟩ => ⟨S8192x3, .f32⟩
  | .hbm, ⟨10, _⟩ => ⟨S_, .f32⟩
  | .hbm, ⟨11, _⟩ => ⟨S8192, .f32⟩
  | .hbm, ⟨12, _⟩ => ⟨S3x8192, .f32⟩
  | .hbm, ⟨13, _⟩ => ⟨S8192x1, .f32⟩
  | .hbm, ⟨14, _⟩ => ⟨S1x8192, .f32⟩
  | .hbm, ⟨15, _⟩ => ⟨S8192x1, .f32⟩
  | .hbm, ⟨16, _⟩ => ⟨S8192, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .local _ .vmem, ⟨0, _⟩ => ⟨S512x3, .f32⟩
  | .local _ .vmem, ⟨1, _⟩ => ⟨S512x3, .f32⟩
  | .local _ .vmem, ⟨2, _⟩ => ⟨S3x1024, .f32⟩
  | .local _ .vmem, ⟨3, _⟩ => ⟨S3x1024, .f32⟩
  | .local _ .vmem, ⟨4, _⟩ => ⟨S512x1, .f32⟩
  | .local _ .vmem, ⟨5, _⟩ => ⟨S512x1, .f32⟩
  | .local _ .vmem, ⟨6, _⟩ => ⟨S1x1024, .f32⟩
  | .local _ .vmem, ⟨7, _⟩ => ⟨S1x1024, .f32⟩
  | .local _ .vmem, ⟨8, _⟩ => ⟨S512x1024, .i32⟩
  | .local _ .vmem, ⟨9, _⟩ => ⟨S512x1024, .i32⟩
  | .local _ .vmem, ⟨10, _⟩ => ⟨S512x1, .f32⟩
  | .local _ .vmem, ⟨11, _⟩ => ⟨S512x1, .f32⟩
  | .local _ .vmem, ⟨12, _⟩ => ⟨S512x1, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v46 : BitVec 1 := Scalar.cmpi .eq arg1 c7_i32
  let v47 : BitVec 32 := Scalar.extui v46
  let c0_i32_17 : BitVec 32 := 0#32
  let v48 : BitVec 1 := Scalar.cmpi .ne v47 c0_i32_17
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S3x1_S3 : S3x1.ShapeCasts S3
  bcast_S3_S1x3_1 : S3.BroadcastsInDim S1x3 (![1] : Fin 1 → Fin S1x3.rank)
  bcast_S1x3_S8192x3_0_1 : S1x3.BroadcastsInDim S8192x3 (![0, 1] : Fin 2 → Fin S8192x3.rank)
  reducesTo_S8192x3_S8192_d1 : S8192x3.ReducesTo [1] S8192
  h_S_ : 0 < S_.numel
  transposes_S8192x3_S3x8192_1_0 : S8192x3.Transposes [1, 0] S3x8192
  shapeCasts_S8192_S8192x1 : S8192.ShapeCasts S8192x1
  shapeCasts_S8192_S1x8192 : S8192.ShapeCasts S1x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x3_S512x3_0_0 : ∀ a, (![0, 0] : Fin 2 → Nat) a + S512x3.size a ≤ S512x3.size a
  h_S512x3 : 0 < S512x3.numel
  shapeCasts_S512x3_S512x3 : S512x3.ShapeCasts S512x3
  inb_S3x1024_S3x1024_0_0 : ∀ a, (![0, 0] : Fin 2 → Nat) a + S3x1024.size a ≤ S3x1024.size a
  h_S3x1024 : 0 < S3x1024.numel
  shapeCasts_S3x1024_S3x1024 : S3x1024.ShapeCasts S3x1024
  slices_S512x3_o0_0_S512x1 : S512x3.Slices ![0, 0] S512x1
  slices_S3x1024_o0_0_S1x1024 : S3x1024.Slices ![0, 0] S1x1024
  broadcasts_S512x1_S512x1024 : S512x1.Broadcasts S512x1024
  broadcasts_S1x1024_S512x1024 : S1x1024.Broadcasts S512x1024
  slices_S512x3_o0_1_S512x1 : S512x3.Slices ![0, 1] S512x1
  slices_S3x1024_o1_0_S1x1024 : S3x1024.Slices ![1, 0] S1x1024
  slices_S512x3_o0_2_S512x1 : S512x3.Slices ![0, 2] S512x1
  slices_S3x1024_o2_0_S1x1024 : S3x1024.Slices ![2, 0] S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  shapeCasts_S8192x1_S8192 : S8192x1.ShapeCasts S8192
  reducesTo_S32_S_d0 : S32.ReducesTo [0] S_
  bcast_S_S8192 : S_.BroadcastsInDim S8192 (![] : Fin 0 → Fin S8192.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3.size a ≤ S8192x3.size a
  hwx0_0 : ∀ i : grid0.Coords, EltTy.bits .f32 = 32 ∨ (Rect.block (s := S8192x3) S512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x1024.size a ≤ S3x8192.size a
  hwx0_1 : ∀ i : grid0.Coords, EltTy.bits .f32 = 32 ∨ (Rect.block (s := S3x8192) S3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x8192.size a
  hwx0_4 : ∀ i : grid0.Coords, EltTy.bits .i32 = 32 ∨ (Rect.block (s := S8192x8192) S512x1024.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S8192x1.size a
  hwx0_5 : ∀ i : grid0.Coords, EltTy.bits .f32 = 32 ∨ (Rect.block (s := S8192x1) S512x1.size (cc0_transform_5 i) (hinb0_5 i)).WholeWords (EltTy.packing .f32)

variable [Facts₀]

abbrev win0_0 : Pipeline.Window sig grid0 :=
  Pipeline.Window.ofSpec (Memref.whole main_v3) S512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S512x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192 : Shape := ⟨1, ![8192]⟩
abbrev S8192x3 : Shape := ⟨2, ![8192, 3]⟩
abbrev S8192x8192 : Shape := ⟨2, ![8192, 8192]⟩
abbrev S32 : Shape := ⟨1, ![32]⟩
abbrev S3x1 : Shape := ⟨2, ![3, 1]⟩
abbrev S3 : Shape := ⟨1, ![3]⟩
abbrev S1x3 : Shape := ⟨2, ![1, 3]⟩
abbrev S_ : Shape := ⟨0, ![]⟩
abbrev S3x8192 : Shape := ⟨2, ![3, 8192]⟩
abbrev S8192x1 : Shape := ⟨2, ![8192, 1]⟩
abbrev S1x8192 : Shape := ⟨2, ![1, 8192]⟩
abbrev S1x32 : Shape := ⟨2, ![1, 32]⟩
abbrev S8192x32 : Shape := ⟨2, ![8192, 32]⟩

abbrev nBuf : Space → Nat
  | .hbm => 50
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192x3, .f32⟩
  | .hbm, ⟨2, _⟩ => ⟨S8192x8192, .i32⟩
  | .hbm, ⟨3, _⟩ => ⟨S32, .f32⟩
  | .hbm, ⟨4, _⟩ => ⟨S3x1, .f32⟩
  | .hbm, ⟨5, _⟩ => ⟨S3, .f32⟩
  | .hbm, ⟨6, _⟩ => ⟨S1x3, .f32⟩
  | .hbm, ⟨7, _⟩ => ⟨S8192x3, .f32⟩
  | .hbm, ⟨8, _⟩ => ⟨S8192x3, .f32⟩
  | .hbm, ⟨9, _⟩ => ⟨S8192x3, .f32⟩
  | .hbm, ⟨10, _⟩ => ⟨S_, .f32⟩
  | .hbm, ⟨11, _⟩ => ⟨S8192, .f32⟩
  | .hbm, ⟨12, _⟩ => ⟨S3x8192, .f32⟩
  | .hbm, ⟨13, _⟩ => ⟨S8192x8192, .f32⟩
  | .hbm, ⟨14, _⟩ => ⟨S8192x1, .f32⟩
  | .hbm, ⟨15, _⟩ => ⟨S1x8192, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S_, .i32⟩
  | .hbm, ⟨24, _⟩ => ⟨S8192x8192, .i32⟩
  | .hbm, ⟨25, _⟩ => ⟨S8192x8192, .i1⟩
  | .hbm, ⟨26, _⟩ => ⟨S_, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S8192, .f32⟩
  | .hbm, ⟨36, _⟩ => ⟨S8192x1, .f32⟩
  | .hbm, ⟨37, _⟩ => ⟨S1x32, .f32⟩
  | .hbm, ⟨38, _⟩ => ⟨S8192x32, .f32⟩
  | .hbm, ⟨39, _⟩ => ⟨S8192x32, .f32⟩
  | .hbm, ⟨40, _⟩ => ⟨S8192x32, .f32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]

class Facts₀ : Prop where
  shapeCasts_S3x1_S3 : S3x1.ShapeCasts S3
  bcast_S3_S1x3_1 : S3.BroadcastsInDim S1x3 (![1] : Fin 1 → Fin S1x3.rank)
  bcast_S1x3_S8192x3_0_1 : S1x3.BroadcastsInDim S8192x3 (![0, 1] : Fin 2 → Fin S8192x3.rank)
  reducesTo_S8192x3_S8192_d1 : S8192x3.ReducesTo [1] S8192
  h_S_ : 0 < S_.numel
  transposes_S8192x3_S3x8192_1_0 : S8192x3.Transposes [1, 0] S3x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  bcast_S32_S1x32_1 : S32.BroadcastsInDim S1x32 (![1] : Fin 1 → Fin S1x32.rank)
  bcast_S8192x1_S8192x32_0_1 : S8192x1.BroadcastsInDim S8192x32 (![0, 1] : Fin 2 → Fin S8192x32.rank)
  bcast_S1x32_S8192x32_0_1 : S1x32.BroadcastsInDim S8192x32 (![0, 1] : Fin 2 → Fin S8192x32.rank)
  reducesTo_S8192x32_S8192_d1 : S8192x32.ReducesTo [1] S8192
  dot_S8192x3_S3x8192_S8192x8192_1_0_0_1_n_n_wf : DotDims.WF S8192x3 S3x8192 S8192x8192 [1] [0] [0] [1] [] []

variable [Facts₀]

def dot_S8192x3_S3x8192_S8192x8192_1_0_0_1_n_n : DotDims S8192x3 S3x8192 S8192x8192 where
  lhsContracting := [1]
  rhsContracting := [0]
  lhsNonContracting := [0]
  rhsNonContracting := [1]
  lhsBatch := []
  rhsBatch := []
  wf := dot_S8192x3_S3x8192_S8192x8192_1_0_0_1_n_n_wf

class Facts : Prop extends Facts₀ where

variable [Facts]
-- ==== Proof.LibPoolFold.lean ====
/-
  Sums and maxima over the source entries that reduce to one result index, on the extended reals.

  A reduction along some axes of an array gathers, at a result index `j`, the source entries whose kept
  coordinates are `j`.  When a family `e : ι → source index` lists exactly those entries, each once
  (`e` injective, every `e p` reduces to `j`, every entry reducing to `j` is some `e p`), a reduction by
  addition is the sum over `ι` of the source at `e p` — for the vector unit's `multi_reduction <add>` and,
  with the starting value added, for the host's `reduce` with an `add` body.  Any number of axes may be
  reduced: the caller chooses `ι` (a product of coordinate ranges, say) and supplies the listing.

  `maxOver a f` is the greatest of `a` and the values `f p`.  It is determined by its upper bounds:
  `maxOver a f ≤ c` exactly when `a ≤ c` and `f p ≤ c` for every `p`.  So it depends only on the SET of
  values `f` takes (`maxOver_eq_of_values`), in particular not on how the family is indexed
  (`maxOver_comp_equiv`); `max` is commutative, associative and idempotent, and no finiteness of the entries
  is used: the laws hold at `+∞` and `-∞` as well.  A reduction by `maximum` — the vector unit's
  `multi_reduction <maximumf>` or the host's `reduce` with a `maximum` body, along any axes — read at a result
  index is `maxOver` over ANY family that lists the values of the source entries reducing to it.
  `rowMax_apply` is the one-axis case of an `[n, c]` array: the maximum of a row.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.PoolFold

open Idealize.ShloMosaic Idealize.ShloMosaic.ValueIdx

variable {ι κ : Type} [Fintype ι] [Fintype κ]

/-! ## Sums -/

/-- A sum over the members of a finite type that satisfy `P` is the sum over any family listing them once. -/
theorem sum_filter_eq_sum_family {α M : Type} [Fintype α] [AddCommMonoid M] (P : α → Prop) [DecidablePred P]
    (x : α → M) (e : ι → α) (hinj : Function.Injective e) (hP : ∀ p, P (e p)) (hsurj : ∀ i, P i → ∃ p, e p = i) :
    ∑ i ∈ Finset.univ.filter P, x i = ∑ p, x (e p) := by
  refine (Finset.sum_nbij e (fun p _ => Finset.mem_filter.mpr ⟨Finset.mem_univ _, hP p⟩) hinj.injOn
    (fun i hi => ?_) (fun _ _ => rfl)).symm
  obtain ⟨p, rfl⟩ := hsurj i (Finset.mem_filter.mp (Finset.mem_coe.mp hi)).2
  exact ⟨p, Finset.mem_coe.mpr (Finset.mem_univ p), rfl⟩

/-- The vector unit's reduction by addition, at a result index `j`: the sum of the source over a family
    listing once each entry whose kept coordinates are `j`. -/
theorem multiReduction_add_eq_sum {s t : Shape} {φ : FTy} {axes : List (Fin s.rank)} (src : FVec Ideal s φ)
    (acc : BitVec φ.bits) (h : s.Reduces axes t) (hφ : FKind.Formats φ) (hacc : acc = FKind.add.neutral φ hφ)
    (j : t.Idx) (e : ι → s.Idx) (hinj : Function.Injective e) (hdrop : ∀ p, h.drop (e p) = j)
    (hsurj : ∀ i, h.drop i = j → ∃ p, e p = i) :
    multiReduction .add axes t src acc h hφ hacc j = ∑ p, src (e p) :=
  sum_filter_eq_sum_family (fun i => h.drop i = j) src e hinj hdrop hsurj

/-- The host's one-operand reduction with an `add` body, likewise, from its starting value's one entry. -/
theorem hostReduceAdd_eq_sum {s t u : Shape} {φ : FTy} {axes : List (Fin s.rank)} (x : FVec Ideal s φ)
    (init : FVec Ideal u φ) (h : s.ReducesTo axes t) (hu : 0 < u.numel) (j : t.Idx) (e : ι → s.Idx)
    (hinj : Function.Injective e) (hdrop : ∀ p, h.drop (e p) = j) (hsurj : ∀ i, h.drop i = j → ∃ p, e p = i) :
    Host.reduceAdd x init h hu j = init (Shape.Idx.first hu) + ∑ p, x (e p) :=
  congrArg (init (Shape.Idx.first hu) + ·) (sum_filter_eq_sum_family (fun i => h.drop i = j) x e hinj hdrop hsurj)

/-! ## Maxima -/

/-- The greatest of `a` and the values `f p`, `p` ranging over a finite type. -/
def maxOver (a : EReal) (f : ι → EReal) : EReal := (Finset.univ : Finset ι).fold max a f

/-- Its upper bounds: those of `a` that are upper bounds of every `f p`. -/
theorem maxOver_le_iff (a : EReal) (f : ι → EReal) (c : EReal) : maxOver a f ≤ c ↔ a ≤ c ∧ ∀ p, f p ≤ c := by
  unfold maxOver
  rw [Finset.fold_max_le]
  exact and_congr_right fun _ => ⟨fun h p => h p (Finset.mem_univ p), fun h p _ => h p⟩

/-- A value with those upper bounds is the maximum. -/
theorem eq_maxOver_of_le_iff {v a : EReal} {f : ι → EReal} (h : ∀ c, v ≤ c ↔ a ≤ c ∧ ∀ p, f p ≤ c) :
    v = maxOver a f :=
  eq_of_forall_ge_iff fun c => (h c).trans (maxOver_le_iff a f c).symm

/-- A fold of `max` from `a` over the members of a finite type that satisfy `P` is `maxOver a f`, for any
    family `f` taking exactly the values `x` takes on those members. -/
theorem fold_max_filter_eq_maxOver {α : Type} [Fintype α] (P : α → Prop) [DecidablePred P] (a : EReal)
    (x : α → EReal) (f : ι → EReal) (h1 : ∀ p, ∃ i, P i ∧ x i = f p) (h2 : ∀ i, P i → ∃ p, f p = x i) :
    (Finset.univ.filter P).fold max a x = maxOver a f := by
  refine eq_maxOver_of_le_iff fun c => ?_
  rw [Finset.fold_max_le]
  refine and_congr_right fun _ => ⟨fun h p => ?_, fun h i hi => ?_⟩
  · obtain ⟨i, hi, e⟩ := h1 p
    exact e ▸ h i (Finset.mem_filter.mpr ⟨Finset.mem_univ i, hi⟩)
  · obtain ⟨p, e⟩ := h2 i (Finset.mem_filter.mp hi).2
    exact e ▸ h p

/-- The maximum depends only on the values taken. -/
theorem maxOver_eq_of_values (a : EReal) (f : ι → EReal) (g : κ → EReal) (h1 : ∀ q, ∃ p, f p = g q)
    (h2 : ∀ p, ∃ q, g q = f p) : maxOver a f = maxOver a g := by
  refine eq_maxOver_of_le_iff fun c => ?_
  rw [maxOver_le_iff]
  refine and_congr_right fun _ => ⟨fun h q => ?_, fun h p => ?_⟩
  · obtain ⟨p, e⟩ := h1 q; exact e ▸ h p
  · obtain ⟨q, e⟩ := h2 p; exact e ▸ h q

/-- Re-indexing the family along a bijection does not change the maximum. -/
theorem maxOver_comp_equiv (a : EReal) (e : ι ≃ κ) (g : κ → EReal) : maxOver a (fun p => g (e p)) = maxOver a g :=
  maxOver_eq_of_values a _ g (fun q => ⟨e.symm q, by rw [e.apply_symm_apply]⟩) (fun p => ⟨e p, rfl⟩)

/-- Pointwise equal families have equal maxima. -/
theorem maxOver_congr (a : EReal) {f g : ι → EReal} (h : ∀ p, f p = g p) : maxOver a f = maxOver a g :=
  congrArg (maxOver a) (funext h)

/-- The vector unit's reduction by maximum, at a result index `j`, on the extended reals: the greatest of
    its starting value and the source entries whose kept coordinates are `j`, listed by any family `f`. -/
theorem multiReduction_max_eq_maxOver {s t : Shape} {φ : FTy} {axes : List (Fin s.rank)} (src : FVec Ideal s φ)
    (acc : BitVec φ.bits) (h : s.Reduces axes t) (hφ : FKind.Formats φ) (hacc : acc = FKind.maximumf.neutral φ hφ)
    (j : t.Idx) (f : ι → EReal) (h1 : ∀ p, ∃ i, h.drop i = j ∧ src i = f p)
    (h2 : ∀ i, h.drop i = j → ∃ p, f p = src i) :
    multiReduction .maximumf axes t src acc h hφ hacc j = maxOver (Ideal.ofBits φ acc) f := by
  rw [multiReduction_maximumf_eq_fold]
  exact fold_max_filter_eq_maxOver (fun i => h.drop i = j) _ src f h1 h2

/-- The host's one-operand reduction with a `maximum` body, likewise, from its starting value's one entry. -/
theorem hostReduce_max_eq_maxOver {s t u : Shape} {φ : FTy} {axes : List (Fin s.rank)} (x : FVec Ideal s φ)
    (init : FVec Ideal u φ) (h : s.ReducesTo axes t) (hu : 0 < u.numel) (j : t.Idx) (f : ι → EReal)
    (h1 : ∀ p, ∃ i, h.drop i = j ∧ x i = f p) (h2 : ∀ i, h.drop i = j → ∃ p, f p = x i) :
    Host.reduce (FloatOps.maximumf (F := Ideal) (φ := φ)) x init h hu j = maxOver (init (Shape.Idx.first hu)) f := by
  rw [Host.reduce_eq_fold]
  exact fold_max_filter_eq_maxOver (fun i => h.drop i = j) _ x f h1 h2

/-- The maximum of an `[n, c]` array along its second axis, started from -∞ (the word `0xFF800000`), reads, at
    row `q`, the greatest of -∞ and the row's entries. -/
theorem rowMax_apply {n c : ℕ} (src : FVec Ideal ⟨2, ![n, c]⟩ .f32)
    (h : (⟨2, ![n, c]⟩ : Shape).Reduces [1] ⟨1, ![n]⟩) (hφ : FKind.Formats .f32)
    (hacc : (0xFF800000#32 : BitVec 32) = 0xFF800000#32) (q : Fin n) :
    multiReduction .maximumf [1] ⟨1, ![n]⟩ src 0xFF800000#32 h hφ hacc (ix1 q)
      = maxOver (Ideal.ofBits .f32 0xFF800000#32) (fun k : Fin c => src (ix2 q k)) := by
  refine (Ideal.multiReduction_maximumf_single src 0xFF800000#32 h hφ hacc (ix1 q)).trans ?_
  unfold maxOver
  refine congrArg (fun g => (Finset.univ : Finset (Fin c)).fold max (Ideal.ofBits .f32 0xFF800000#32) g) (funext fun k => ?_)
  refine congrArg src (funext fun ax => Fin.ext ?_)
  match ax with
  | ⟨0, _⟩ => rfl
  | ⟨1, _⟩ => rfl

end Cert.PoolFold

end
-- ==== Proof.Spec.lean ====
/-
  The neighbour-distance pooling both programs compute, as functions of the five argument arrays.

  With w the one column of W_theta, the scaled coordinates are y(i,k) = nodes(i,k) · w(k) and their squared
  norms sq(i) = 0 + Σₖ y(i,k)². For a pair of nodes the squared weighted distance is written through the
  Gram term, d²(i,j) = (sq(i) + sq(j)) − 2·((y(i,0)y(j,0) + y(i,1)y(j,1)) + y(i,2)y(j,2)); a non-neighbour
  (adjacency entry not positive) counts as −∞; the pooled distance of node i is
  √(max(maxⱼ d²(i,j), 0)), the maximum started from −∞. The score is then averaged against W_phi and
  halved with the previous score, in one of two arrangements: the pooled distance times the mean of W_phi,
  or the mean over k of (pooled distance · W_phi(k)). The two agree when the pooled distance and the
  entries of W_phi are real numbers (module Algebra).

  The same pooling is also stated over FIVE ARBITRARY arrays (a [N,3] table, a [3,N] table, a column and a
  row of norms, the adjacency), which is what one launch of the tiled computation sees; fed the tables of
  y and sq it is the pooled distance above (`regionOut_eq`).
-/
import Idealize.ShloMosaic.PureOps
import Idealize.ShloMosaic.PureOps.Ideal
import Idealize.ShloMosaic.Lib.ValueIdx
import proofs.«118134_j35364760715802_2_alg».proof.Proof.LibPoolFold

noncomputable section

namespace Cert.DevConv

open Idealize.ShloMosaic Idealize.ShloMosaic.ValueIdx Cert.PoolFold

abbrev SN : Shape := ⟨1, ![8192]⟩
abbrev SN3 : Shape := ⟨2, ![8192, 3]⟩
abbrev S3N : Shape := ⟨2, ![3, 8192]⟩
abbrev SN1 : Shape := ⟨2, ![8192, 1]⟩
abbrev S1N : Shape := ⟨2, ![1, 8192]⟩
abbrev SNN : Shape := ⟨2, ![8192, 8192]⟩
abbrev S31 : Shape := ⟨2, ![3, 1]⟩
abbrev S32 : Shape := ⟨1, ![32]⟩

/-- The float words the programs share, as extended reals: −∞, 2, 0, 32, ½. -/
abbrev negInf : EReal := Ideal.ofBits .f32 0xFF800000#32
abbrev two : EReal := Ideal.ofBits .f32 0x40000000#32
abbrev zero : EReal := Ideal.ofBits .f32 0x00000000#32
abbrev c32 : EReal := Ideal.ofBits .f32 0x42000000#32
abbrev half : EReal := Ideal.ofBits .f32 0x3F000000#32

/-! ## Over five arbitrary arrays -/

section Region
variable (Y : SN3.Idx → EReal) (YT : S3N.Idx → EReal) (Qc : SN1.Idx → EReal) (Qr : S1N.Idx → EReal)
  (A : SNN.Idx → BitVec 32)

/-- The squared distance of the pair (i, j) from the two tables and the two norm arrays. -/
def d2 (i j : Fin 8192) : EReal :=
  (Qc (ix2 i (0 : Fin 1)) + Qr (ix2 (0 : Fin 1) j))
    - two * ((Y (ix2 i (0 : Fin 3)) * YT (ix2 (0 : Fin 3) j) + Y (ix2 i (1 : Fin 3)) * YT (ix2 (1 : Fin 3) j))
        + Y (ix2 i (2 : Fin 3)) * YT (ix2 (2 : Fin 3) j))

/-- The same, with −∞ where j is no neighbour of i. -/
def masked (i j : Fin 8192) : EReal :=
  Scalar.select (IntOp.cmpi .sgt (A (ix2 i j)) 0#32) (d2 Y YT Qc Qr i j) negInf

/-- The greatest masked squared distance of row i, from −∞. -/
def rowMax (i : Fin 8192) : EReal := maxOver negInf (fun j : Fin 8192 => masked Y YT Qc Qr A i j)

/-- The pooled distances as an [N,1] column. -/
def regionOut : SN1.Idx → EReal :=
  fun p => Ideal.sqrt (max (rowMax Y YT Qc Qr A ⟨(p 0).val, (p 0).isLt⟩) zero)

end Region

/-! ## Over the argument arrays -/

section Args
variable (prev : SN.Idx → EReal) (nodes : SN3.Idx → EReal) (wθ : S31.Idx → EReal) (A : SNN.Idx → BitVec 32)
  (W : S32.Idx → EReal)

/-- The scaled coordinate y(i,k). -/
def y (i : Fin 8192) (k : Fin 3) : EReal := nodes (ix2 i k) * wθ (ix2 k (0 : Fin 1))

/-- The squared norm of row i of y, summed from the zero word. -/
def sq (i : Fin 8192) : EReal := zero + ∑ k : Fin 3, y nodes wθ i k * y nodes wθ i k

/-- The squared weighted distance of nodes i and j. -/
def dist2 (i j : Fin 8192) : EReal :=
  (sq nodes wθ i + sq nodes wθ j)
    - two * ((y nodes wθ i 0 * y nodes wθ j 0 + y nodes wθ i 1 * y nodes wθ j 1) + y nodes wθ i 2 * y nodes wθ j 2)

/-- The greatest squared distance from node i to a neighbour, from −∞. -/
def nbrMax (i : Fin 8192) : EReal :=
  maxOver negInf (fun j : Fin 8192 => Scalar.select (IntOp.cmpi .sgt (A (ix2 i j)) 0#32) (dist2 nodes wθ i j) negInf)

/-- The pooled distance of node i. -/
def mdist (i : Fin 8192) : EReal := Ideal.sqrt (max (nbrMax nodes wθ A i) zero)

/-- The mean of W_phi: its sum from the zero word, divided by 32. -/
def meanW : EReal := Ideal.div (zero + ∑ k : Fin 32, W (ix1 k)) c32

/-- The score, the pooled distance multiplied by the mean of W_phi. -/
def scoreK (i : Fin 8192) : EReal := (prev (ix1 i) + mdist nodes wθ A i * meanW W) * half

/-- The score, the mean over k of the pooled distance times W_phi(k). -/
def scoreR (i : Fin 8192) : EReal :=
  (prev (ix1 i) + Ideal.div (zero + ∑ k : Fin 32, mdist nodes wθ A i * W (ix1 k)) c32) * half

/-- Fed the tables of y and sq, the pooling over arbitrary arrays is the pooled distance. -/
theorem regionOut_eq (Y : SN3.Idx → EReal) (YT : S3N.Idx → EReal) (Qc : SN1.Idx → EReal) (Qr : S1N.Idx → EReal)
    (hY : ∀ i k, Y (ix2 i k) = y nodes wθ i k) (hYT : ∀ k j, YT (ix2 k j) = y nodes wθ j k)
    (hQc : ∀ i, Qc (ix2 i (0 : Fin 1)) = sq nodes wθ i) (hQr : ∀ j, Qr (ix2 (0 : Fin 1) j) = sq nodes wθ j)
    (i : Fin 8192) : regionOut Y YT Qc Qr A (ix2 i (0 : Fin 1)) = mdist nodes wθ A i := by
  unfold regionOut mdist rowMax nbrMax masked d2 dist2
  simp only [hY, hYT, hQc, hQr]

end Args

end Cert.DevConv

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.Pay.lean ====
/-
  The tile body's four payloads read at an index, on the extended reals. For a [512,3] block x0 of y, a [3,1024]
  block x1 of yᵀ, a [512,1] block x2 and a [1,1024] block x3 of the squared norms and a [512,1024] block x4 of the
  adjacency, the tile's row maxima are, at row r, the greatest from −∞ over the 1024 columns k of
  (x2(r) + x3(k)) − 2·((x0(r,0)x1(0,k) + x0(r,1)x1(1,k)) + x0(r,2)x1(2,k)) where x4(r,k) > 0 and −∞ elsewhere;
  the running column is joined by max; the output is √(max(·, 0)); the reset stores −∞.
-/
import proofs.«118134_j35364760715802_2_alg».proof.Proof.Gen.KernelIdeal.Skeleton
import proofs.«118134_j35364760715802_2_alg».proof.Proof.Spec
import proofs.«118134_j35364760715802_2_alg».proof.Proof.LibRowBlocks
import Idealize.ShloMosaic.Lib.ValueLayout
import Idealize.ShloMosaic.Lib.Pipeline.Value

noncomputable section

namespace Cert.KernelIdeal.Pay

open Idealize.ShloMosaic Idealize.ShloMosaic.ValueIdx Cert.PoolFold
open Cert.KernelIdeal Cert.KernelIdeal.Gen
open Cert.DevConv (negInf two zero)

/-- One masked squared distance of the tile, at row r and column k of the blocks. -/
def tileSel (x0 : Vec Ideal S512x3 .f32) (x1 : Vec Ideal S3x1024 .f32) (x2 : Vec Ideal S512x1 .f32)
    (x3 : Vec Ideal S1x1024 .f32) (x4 : Vec Ideal S512x1024 .i32) (r : Fin 512) (k : Fin 1024) : EReal :=
  Scalar.select (IntOp.cmpi .sgt (x4 (ix2 r k)) 0#32)
    ((x2 (ix2 r (0 : Fin 1)) + x3 (ix2 (0 : Fin 1) k))
      - two * ((x0 (ix2 r (0 : Fin 3)) * x1 (ix2 (0 : Fin 3) k) + x0 (ix2 r (1 : Fin 3)) * x1 (ix2 (1 : Fin 3) k))
          + x0 (ix2 r (2 : Fin 3)) * x1 (ix2 (2 : Fin 3) k)))
    negInf

/-- Column o of a [512,3] block, spread over the tile's columns. -/
theorem col_apply (v : S512x3.Idx → EReal) (o : Nat) (oo : Fin 3) (ho : oo.val = o) (h1 : S512x3.Slices ![0, o] S512x1)
    (h2 : S512x1.Broadcasts S512x1024) (r : Fin 512) (k : Fin 1024) :
    broadcastTo S512x1024 (extractStridedSlice S512x1 ![0, o] v h1) h2 (ix2 r k) = v (ix2 r oo) :=
  (Cert.RowBlocks.broadcastTo_col_apply _ h2 r k).trans
    (slice2_axis1_apply o v h1 r (0 : Fin 1) oo (by rw [ho]; rfl))

/-- Row o of a [3,1024] block, spread over the tile's rows. -/
theorem row_apply (v : S3x1024.Idx → EReal) (o : Nat) (oo : Fin 3) (ho : oo.val = o) (h1 : S3x1024.Slices ![o, 0] S1x1024)
    (h2 : S1x1024.Broadcasts S512x1024) (r : Fin 512) (k : Fin 1024) :
    broadcastTo S512x1024 (extractStridedSlice S1x1024 ![o, 0] v h1) h2 (ix2 r k) = v (ix2 oo k) :=
  (broadcastTo_1b_ab_apply _ h2 r k).trans
    (slice2_axis0_apply o v h1 (0 : Fin 1) k oo (by rw [ho]; rfl))

theorem pay3_apply (p : S512x1.Idx) : k0_pay3 (F := Ideal) p = negInf := by
  unfold k0_pay3
  (try dsimp only)
  rw [shapeCast_self]
  rfl

theorem pay1_apply (v40 v41 : S512x1.Idx → EReal) (p : S512x1.Idx) :
    k0_pay1 (F := Ideal) v40 v41 p = max (v41 p) (v40 p) := by
  unfold k0_pay1
  (try dsimp only)
  rw [shapeCast_self]
  rfl

theorem pay2_apply (v49 : S512x1.Idx → EReal) (p : S512x1.Idx) :
    k0_pay2 (F := Ideal) v49 p = Ideal.sqrt (max (v49 p) zero) := by
  unfold k0_pay2
  rfl

/-- The tile's row maxima, at row r. -/
theorem pay4_apply (x0 : Vec Ideal S512x3 .f32) (x1 : Vec Ideal S3x1024 .f32) (x2 : Vec Ideal S512x1 .f32)
    (x3 : Vec Ideal S1x1024 .f32) (x4 : Vec Ideal S512x1024 .i32) (r : Fin 512) :
    k0_pay4 (F := Ideal) x0 x1 x2 x3 x4 (ix2 r (0 : Fin 1))
      = maxOver negInf (fun k : Fin 1024 => tileSel x0 x1 x2 x3 x4 r k) := by
  unfold k0_pay4
  (try dsimp only)
  refine (Cert.RowBlocks.shapeCast_col_apply _ _ r (0 : Fin 1)).trans ?_
  refine (Cert.PoolFold.rowMax_apply _ _ _ _ r).trans ?_
  refine maxOver_congr _ fun k => ?_
  unfold tileSel
  simp only [shapeCast_self]
  refine congrArg₂ (fun a b => Scalar.select (IntOp.cmpi .sgt (x4 (ix2 r k)) 0#32) (a - two * b) negInf) ?_ ?_
  · exact congrArg₂ (· + ·) (Cert.RowBlocks.broadcastTo_col_apply _ _ r k) (broadcastTo_1b_ab_apply _ _ r k)
  · refine congrArg₂ (· + ·) (congrArg₂ (· + ·) (congrArg₂ (· * ·) ?_ ?_) (congrArg₂ (· * ·) ?_ ?_)) (congrArg₂ (· * ·) ?_ ?_)
    · exact col_apply x0 0 0 rfl _ _ r k
    · exact row_apply x1 0 0 rfl _ _ r k
    · exact col_apply x0 1 1 rfl _ _ r k
    · exact row_apply x1 1 1 rfl _ _ r k
    · exact col_apply x0 2 2 rfl _ _ r k
    · exact row_apply x1 2 2 rfl _ _ r k

end Cert.KernelIdeal.Pay

end
-- ==== Proof.Blocks.lean ====
/-
  Where the tile body's input blocks sit in the arrays. The grid is 16 row blocks by 8 column tiles, walked row
  block by row block: point t is row block t / 8 and column tile t % 8. At point t the [512,3] block of y starts
  at row 512·(t/8), the [3,1024] block of yᵀ at column 1024·(t%8), the norms' column and row blocks likewise, and
  the adjacency block at both. So one masked squared distance of the tile, at (r, k), is the array-level one of
  the pair (512·(t/8) + r, 1024·(t%8) + k).
-/
import proofs.«118134_j35364760715802_2_alg».proof.Proof.Gen.KernelIdeal.Frame
import proofs.«118134_j35364760715802_2_alg».proof.Proof.Pay
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Region

open Cert.KernelIdeal Cert.KernelIdeal.Gen

variable (m : (ℓ : Loc nD τ sig) → Buf (Elt Ideal) ℓ)

theorem N128 : cfg0.N = 128 := N_0

/-- The block indices of the six windows at point t, decided over the grid. -/
theorem idx_facts : ∀ t : Fin cfg0.N,
    win0_0.index t (0 : Fin 2) = t.val / 8 ∧ win0_0.index t (1 : Fin 2) = 0
    ∧ win0_1.index t (0 : Fin 2) = 0 ∧ win0_1.index t (1 : Fin 2) = t.val % 8
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = t.val % 8
    ∧ win0_5.index t (0 : Fin 2) = t.val / 8 ∧ win0_5.index t (1 : Fin 2) = 0 :=
  (by decide +kernel : ∀ t : Fin grid0.N, _)

/-- The array row of row r of point t's row block, -/
def rowOf (t : Fin cfg0.N) (r : Fin 512) : Fin 8192 :=
  ⟨512 * (t.val / 8) + r.val, by have := t.isLt; have := N128; have := r.isLt; omega⟩

/-- and the array column of column k of its column tile. -/
def colOf (t : Fin cfg0.N) (k : Fin 1024) : Fin 8192 :=
  ⟨1024 * (t.val % 8) + k.val, by have := k.isLt; omega⟩

theorem blk0 (c : Dev nD) (t : Fin cfg0.N) (r : Fin 512) (k : Fin 3) :
    (iblk m c 0 t : Vec Ideal S512x3 .f32) (ix2 r k) = V m c main_v3 (ix2 (rowOf t r) k) := by
  obtain ⟨e0, e1, -⟩ := idx_facts t
  unfold iblk
  show V m c main_v3 (((cfg0.win 0).blk t).view.emb (ix2 r k)) = _
  refine congrArg (V m c main_v3) (funext fun a => Fin.ext ?_)
  match a with
  | ⟨0, _⟩ => show win0_0.index t (0 : Fin 2) * 512 + 1 * r.val = 512 * (t.val / 8) + r.val; omega
  | ⟨1, _⟩ => show win0_0.index t (1 : Fin 2) * 3 + 1 * k.val = k.val; omega

theorem blk1 (c : Dev nD) (t : Fin cfg0.N) (k : Fin 3) (q : Fin 1024) :
    (iblk m c 1 t : Vec Ideal S3x1024 .f32) (ix2 k q) = V m c main_v6 (ix2 k (colOf t q)) := by
  obtain ⟨-, -, e0, e1, -⟩ := idx_facts t
  unfold iblk
  show V m c main_v6 (((cfg0.win 1).blk t).view.emb (ix2 k q)) = _
  refine congrArg (V m c main_v6) (funext fun a => Fin.ext ?_)
  match a with
  | ⟨0, _⟩ => show win0_1.index t (0 : Fin 2) * 3 + 1 * k.val = k.val; omega
  | ⟨1, _⟩ => show win0_1.index t (1 : Fin 2) * 1024 + 1 * q.val = 1024 * (t.val % 8) + q.val; omega

theorem blk2 (c : Dev nD) (t : Fin cfg0.N) (r : Fin 512) :
    (iblk m c 2 t : Vec Ideal S512x1 .f32) (ix2 r (0 : Fin 1)) = V m c main_v7 (ix2 (rowOf t r) (0 : Fin 1)) := by
  obtain ⟨-, -, -, -, e0, e1, -⟩ := idx_facts t
  unfold iblk
  show V m c main_v7 (((cfg0.win 2).blk t).view.emb (ix2 r (0 : Fin 1))) = _
  refine congrArg (V m c main_v7) (funext fun a => Fin.ext ?_)
  match a with
  | ⟨0, _⟩ => show win0_2.index t (0 : Fin 2) * 512 + 1 * r.val = 512 * (t.val / 8) + r.val; omega
  | ⟨1, _⟩ => show win0_2.index t (1 : Fin 2) * 1 + 1 * 0 = 0; omega

theorem blk3 (c : Dev nD) (t : Fin cfg0.N) (q : Fin 1024) :
    (iblk m c 3 t : Vec Ideal S1x1024 .f32) (ix2 (0 : Fin 1) q) = V m c main_v8 (ix2 (0 : Fin 1) (colOf t q)) := by
  obtain ⟨-, -, -, -, -, -, e0, e1, -⟩ := idx_facts t
  unfold iblk
  show V m c main_v8 (((cfg0.win 3).blk t).view.emb (ix2 (0 : Fin 1) q)) = _
  refine congrArg (V m c main_v8) (funext fun a => Fin.ext ?_)
  match a with
  | ⟨0, _⟩ => show win0_3.index t (0 : Fin 2) * 1 + 1 * 0 = 0; omega
  | ⟨1, _⟩ => show win0_3.index t (1 : Fin 2) * 1024 + 1 * q.val = 1024 * (t.val % 8) + q.val; omega

theorem blk4 (c : Dev nD) (t : Fin cfg0.N) (r : Fin 512) (q : Fin 1024) :
    (iblk m c 4 t : Vec Ideal S512x1024 .i32) (ix2 r q) = V m c main_arg2 (ix2 (rowOf t r) (colOf t q)) := by
  obtain ⟨-, -, -, -, -, -, -, -, e0, e1, -⟩ := idx_facts t
  unfold iblk
  show V m c main_arg2 (((cfg0.win 4).blk t).view.emb (ix2 r q)) = _
  refine congrArg (V m c main_arg2) (funext fun a => Fin.ext ?_)
  match a with
  | ⟨0, _⟩ => show win0_4.index t (0 : Fin 2) * 512 + 1 * r.val = 512 * (t.val / 8) + r.val; omega
  | ⟨1, _⟩ => show win0_4.index t (1 : Fin 2) * 1024 + 1 * q.val = 1024 * (t.val % 8) + q.val; omega

/-- One masked squared distance of point t's tile is the array-level one of the pair it sits at. -/
theorem tile_eq (c : Dev nD) (t : Fin cfg0.N) (r : Fin 512) (k : Fin 1024) :
    Pay.tileSel (iblk m c 0 t) (iblk m c 1 t) (iblk m c 2 t) (iblk m c 3 t) (iblk m c 4 t) r k
      = Cert.DevConv.masked (V m c main_v3) (V m c main_v6) (V m c main_v7) (V m c main_v8) (V m c main_arg2)
          (rowOf t r) (colOf t k) := by
  unfold Pay.tileSel Cert.DevConv.masked Cert.DevConv.d2
  rw [blk0 m c t r 0, blk0 m c t r 1, blk0 m c t r 2, blk1 m c t 0 k, blk1 m c t 1 k, blk1 m c t 2 k,
    blk2 m c t r, blk3 m c t k, blk4 m c t r k]

end Cert.KernelIdeal.Region

end
-- ==== Proof.Cases.lean ====
/-
  What one run of the tile body leaves behind, case by case, as the body's own pure payloads: the carried [512,1]
  column of running row maxima (reset to −∞ at a row block's first column tile, then joined with the tile's row
  maxima), and — at the row block's last column tile only — the output block, the root of the non-negative part
  of that column. Each is the one covering store's payload with its loads read back from whole buffers.
-/
import proofs.«118134_j35364760715802_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- At a row block's first column tile the carried column of running maxima is reset to −∞ and then joined with the
    tile's row maxima. -/
theorem scr_A (c : Dev nD) (i : grid0.Coords) (a2 : Memref sig .tc .vmem S512x3 .f32) (h2 : a2.IsWhole) (a3 : Memref sig .tc .vmem S3x1024 .f32) (h3 : a3.IsWhole) (a4 : Memref sig .tc .vmem S512x1 .f32) (h4 : a4.IsWhole) (a5 : Memref sig .tc .vmem S1x1024 .f32) (h5 : a5.IsWhole) (a6 : Memref sig .tc .vmem S512x1024 .i32) (h6 : a6.IsWhole) (a7 : Memref sig .tc .vmem S512x1 .f32) (h7 : a7.IsWhole) (a8 : Memref sig .tc .vmem S512x1 .f32) (h8 : a8.IsWhole) (hc0 : cond0_0 i) (hc1 : ¬cond0_1 i) (x0 : Vec F S512x3 .f32) (x1 : Vec F S3x1024 .f32) (x2 : Vec F S512x1 .f32) (x3 : Vec F S1x1024 .f32) (x4 : Vec F S512x1024 .i32) :
    sout0_A_0 c i a2 h2 a3 h3 a4 h4 a5 h5 a6 h6 a7 h7 a8 h8 hc0 hc1 x0 x1 x2 x3 x4 = k0_pay1 (k0_pay4 x0 x1 x2 x3 x4) (k0_pay3 (F := F)) := by
  unfold sout0_A_0
  rw [View.read_writes_eq_canon _ _ _ (scover0_A_0 c i a2 h2 a3 h3 a4 h4 a5 h5 a6 h6 a7 h7 a8 h8 hc0 hc1 x0 x1 x2 x3 x4)]
  unfold kernelRun0_A
  dsimp only
  sl_unfold_words
  rw [View.canon_cons_unit_zero (S := S512x1) hz, View.readCov_unit_zero (S := S512x1) _ hz]
  simp only [View.readAt_eq_ld, h2.read_unread, h3.read_unread, h4.read_unread, h5.read_unread, h6.read_unread, View.ld_unit_zero (S := S512x3) hz, View.ld_unit_zero (S := S3x1024) hz, View.ld_unit_zero (S := S512x1) hz, View.ld_unit_zero (S := S1x1024) hz, View.ld_unit_zero (S := S512x1024) hz]

/-- At a later column tile the carried column is joined with the tile's row maxima. -/
theorem scr_B (c : Dev nD) (i : grid0.Coords) (a2 : Memref sig .tc .vmem S512x3 .f32) (h2 : a2.IsWhole) (a3 : Memref sig .tc .vmem S3x1024 .f32) (h3 : a3.IsWhole) (a4 : Memref sig .tc .vmem S512x1 .f32) (h4 : a4.IsWhole) (a5 : Memref sig .tc .vmem S1x1024 .f32) (h5 : a5.IsWhole) (a6 : Memref sig .tc .vmem S512x1024 .i32) (h6 : a6.IsWhole) (a7 : Memref sig .tc .vmem S512x1 .f32) (h7 : a7.IsWhole) (a8 : Memref sig .tc .vmem S512x1 .f32) (h8 : a8.IsWhole) (hc0 : ¬cond0_0 i) (hc1 : ¬cond0_1 i) (x0 : Vec F S512x3 .f32) (x1 : Vec F S3x1024 .f32) (x2 : Vec F S512x1 .f32) (x3 : Vec F S1x1024 .f32) (x4 : Vec F S512x1024 .i32) (xs0 : Vec F S512x1 .f32) :
    sout0_B_0 c i a2 h2 a3 h3 a4 h4 a5 h5 a6 h6 a7 h7 a8 h8 hc0 hc1 x0 x1 x2 x3 x4 xs0 = k0_pay1 (k0_pay4 x0 x1 x2 x3 x4) xs0 := by
  unfold sout0_B_0
  rw [View.read_writes_eq_canon _ _ _ (scover0_B_0 c i a2 h2 a3 h3 a4 h4 a5 h5 a6 h6 a7 h7 a8 h8 hc0 hc1 x0 x1 x2 x3 x4 xs0)]
  unfold kernelRun0_B
  dsimp only
  sl_unfold_words
  rw [View.canon_unit_zero hz]
  simp only [View.readAt_eq_ld, h2.read_unread, h3.read_unread, h4.read_unread, h5.read_unread, h6.read_unread, h8.read_unread, View.ld_unit_zero (S := S512x3) hz, View.ld_unit_zero (S := S3x1024) hz, View.ld_unit_zero (S := S512x1) hz, View.ld_unit_zero (S := S1x1024) hz, View.ld_unit_zero (S := S512x1024) hz]

/-- The same at a row block's last column tile; -/
theorem scr_C (c : Dev nD) (i : grid0.Coords) (a2 : Memref sig .tc .vmem S512x3 .f32) (h2 : a2.IsWhole) (a3 : Memref sig .tc .vmem S3x1024 .f32) (h3 : a3.IsWhole) (a4 : Memref sig .tc .vmem S512x1 .f32) (h4 : a4.IsWhole) (a5 : Memref sig .tc .vmem S1x1024 .f32) (h5 : a5.IsWhole) (a6 : Memref sig .tc .vmem S512x1024 .i32) (h6 : a6.IsWhole) (a7 : Memref sig .tc .vmem S512x1 .f32) (h7 : a7.IsWhole) (a8 : Memref sig .tc .vmem S512x1 .f32) (h8 : a8.IsWhole) (hc0 : ¬cond0_0 i) (hc1 : cond0_1 i) (x0 : Vec F S512x3 .f32) (x1 : Vec F S3x1024 .f32) (x2 : Vec F S512x1 .f32) (x3 : Vec F S1x1024 .f32) (x4 : Vec F S512x1024 .i32) (xs0 : Vec F S512x1 .f32) :
    sout0_C_0 c i a2 h2 a3 h3 a4 h4 a5 h5 a6 h6 a7 h7 a8 h8 hc0 hc1 x0 x1 x2 x3 x4 xs0 = k0_pay1 (k0_pay4 x0 x1 x2 x3 x4) xs0 := by
  unfold sout0_C_0
  rw [View.read_writes_eq_canon _ _ _ (scover0_C_0 c i a2 h2 a3 h3 a4 h4 a5 h5 a6 h6 a7 h7 a8 h8 hc0 hc1 x0 x1 x2 x3 x4 xs0)]
  unfold kernelRun0_C
  dsimp only
  sl_unfold_words
  rw [View.canon_unit_zero hz]
  simp only [View.readAt_eq_ld, h2.read_unread, h3.read_unread, h4.read_unread, h5.read_unread, h6.read_unread, h8.read_unread, View.ld_unit_zero (S := S512x3) hz, View.ld_unit_zero (S := S3x1024) hz, View.ld_unit_zero (S := S512x1) hz, View.ld_unit_zero (S := S1x1024) hz, View.ld_unit_zero (S := S512x1024) hz]

/-- and there the output block is stored: the root of the non-negative part of the finished column. -/
theorem out_C (c : Dev nD) (i : grid0.Coords) (a2 : Memref sig .tc .vmem S512x3 .f32) (h2 : a2.IsWhole) (a3 : Memref sig .tc .vmem S3x1024 .f32) (h3 : a3.IsWhole) (a4 : Memref sig .tc .vmem S512x1 .f32) (h4 : a4.IsWhole) (a5 : Memref sig .tc .vmem S1x1024 .f32) (h5 : a5.IsWhole) (a6 : Memref sig .tc .vmem S512x1024 .i32) (h6 : a6.IsWhole) (a7 : Memref sig .tc .vmem S512x1 .f32) (h7 : a7.IsWhole) (a8 : Memref sig .tc .vmem S512x1 .f32) (h8 : a8.IsWhole) (hc0 : ¬cond0_0 i) (hc1 : cond0_1 i) (x0 : Vec F S512x3 .f32) (x1 : Vec F S3x1024 .f32) (x2 : Vec F S512x1 .f32) (x3 : Vec F S1x1024 .f32) (x4 : Vec F S512x1024 .i32) (xs0 : Vec F S512x1 .f32) :
    out0_C_5 c i a2 h2 a3 h3 a4 h4 a5 h5 a6 h6 a7 h7 a8 h8 hc0 hc1 x0 x1 x2 x3 x4 xs0 = k0_pay2 (k0_pay1 (k0_pay4 x0 x1 x2 x3 x4) xs0) := by
  unfold out0_C_5
  rw [View.read_writes_eq_canon _ _ _ (cover0_C_5 c i a2 h2 a3 h3 a4 h4 a5 h5 a6 h6 a7 h7 a8 h8 hc0 hc1 x0 x1 x2 x3 x4 xs0)]
  unfold kernelRun0_C
  dsimp only
  sl_unfold_words
  rw [View.canon_unit_zero hz]
  simp only [View.readAt_eq_ld, h2.read_unread, h3.read_unread, h4.read_unread, h5.read_unread, h6.read_unread, h8.read_unread, View.ld_unit_zero (S := S512x3) hz, View.ld_unit_zero (S := S3x1024) hz, View.ld_unit_zero (S := S512x1) hz, View.ld_unit_zero (S := S1x1024) hz, View.ld_unit_zero (S := S512x1024) hz, View.readCov_unit_zero (S := S512x1) _ hz]

end Cert.KernelIdeal.Pieces
end
-- ==== Proof.Accum.lean ====
/-
  The carried column of running maxima, point by point. After point t (row block t/8, column tile t%8) its entry
  at row r is the greatest, from −∞, of the masked squared distances of array row 512·(t/8) + r to the columns
  below 1024·(t%8 + 1): at the row block's first tile the column is reset and joined with that tile's row maxima,
  at a later tile it is joined with the next 1024 columns. The maximum is carried by its upper bounds (a value is
  ≤ b iff −∞ ≤ b and every listed entry is ≤ b), so no family of varying length is ever named. After the row
  block's last tile every column is listed, the entry is the row's maximum, and the block stored there is the
  root of its non-negative part: the pooled distance.
-/
import proofs.«118134_j35364760715802_2_alg».proof.Proof.Blocks
import proofs.«118134_j35364760715802_2_alg».proof.Proof.Cases

noncomputable section

open Idealize.ShloMosaic Idealize.ShloMosaic.TcCoe Idealize.SL.Sem Idealize.ShloMosaic.ValueIdx
open Idealize.ShloMosaic.Pipeline (Dat)

namespace Cert.KernelIdeal.Region

open Cert.KernelIdeal Cert.KernelIdeal.Gen Cert.PoolFold
open Cert.DevConv (negInf zero)

variable (m : (ℓ : Loc nD τ sig) → Buf (Elt Ideal) ℓ)

/-- The masked squared distances over the arrays as the launch finds them. -/
abbrev aMasked (c : Dev nD) : Fin 8192 → Fin 8192 → EReal :=
  Cert.DevConv.masked (V m c main_v3) (V m c main_v6) (V m c main_v7) (V m c main_v8) (V m c main_arg2)

/-! ## What each kind of point leaves -/

theorem scrA (c : Dev nD) (t : Fin cfg0.N) (h0 : t.val % 8 = 0) (h1 : ¬t.val % 8 = 7) :
    (outsAt0 m c t.val t.isLt).2 = k0_pay1 (k0_pay4 (iblk m c 0 t) (iblk m c 1 t) (iblk m c 2 t) (iblk m c 3 t) (iblk m c 4 t)) (k0_pay3 (F := Ideal)) := by
  rw [outsAt0_A m c t h0 h1]
  exact Pieces.scr_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)

theorem scrB (c : Dev nD) (t : Fin cfg0.N) (h0 : ¬t.val % 8 = 0) (h1 : ¬t.val % 8 = 7) :
    (outsAt0 m c t.val t.isLt).2 = k0_pay1 (k0_pay4 (iblk m c 0 t) (iblk m c 1 t) (iblk m c 2 t) (iblk m c 3 t) (iblk m c 4 t)) (outsAt0 m c (t.val - 1) (Nat.lt_of_le_of_lt (Nat.sub_le _ _) t.isLt)).2 := by
  rw [outsAt0_B m c t h0 h1]
  exact Pieces.scr_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2

theorem scrC (c : Dev nD) (t : Fin cfg0.N) (h0 : ¬t.val % 8 = 0) (h1 : t.val % 8 = 7) :
    (outsAt0 m c t.val t.isLt).2 = k0_pay1 (k0_pay4 (iblk m c 0 t) (iblk m c 1 t) (iblk m c 2 t) (iblk m c 3 t) (iblk m c 4 t)) (outsAt0 m c (t.val - 1) (Nat.lt_of_le_of_lt (Nat.sub_le _ _) t.isLt)).2 := by
  rw [outsAt0_C m c t h0 h1]
  exact Pieces.scr_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2

theorem outC (c : Dev nD) (t : Fin cfg0.N) (h0 : ¬t.val % 8 = 0) (h1 : t.val % 8 = 7) :
    (outsAt0 m c t.val t.isLt).1 = k0_pay2 (k0_pay1 (k0_pay4 (iblk m c 0 t) (iblk m c 1 t) (iblk m c 2 t) (iblk m c 3 t) (iblk m c 4 t)) (outsAt0 m c (t.val - 1) (Nat.lt_of_le_of_lt (Nat.sub_le _ _) t.isLt)).2) := by
  rw [outsAt0_C m c t h0 h1]
  exact Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2

/-! ## Upper bounds -/

/-- The tile's row maximum at row r is bounded by b iff −∞ is and so is every masked squared distance of the row
    to the tile's 1024 columns. -/
theorem tileMax_le_iff (c : Dev nD) (t : Fin cfg0.N) (r : Fin 512) (b : EReal) :
    k0_pay4 (F := Ideal) (iblk m c 0 t) (iblk m c 1 t) (iblk m c 2 t) (iblk m c 3 t) (iblk m c 4 t) (ix2 r (0 : Fin 1)) ≤ b
      ↔ negInf ≤ b ∧ ∀ j : Fin 8192, 1024 * (t.val % 8) ≤ j.val → j.val < 1024 * (t.val % 8 + 1) →
          aMasked m c (rowOf t r) j ≤ b := by
  rw [Pay.pay4_apply (iblk m c 0 t) (iblk m c 1 t) (iblk m c 2 t) (iblk m c 3 t) (iblk m c 4 t) r, maxOver_le_iff]
  refine and_congr_right fun _ => ⟨fun h j h1 h2 => ?_, fun h k => ?_⟩
  · have hk := h ⟨j.val - 1024 * (t.val % 8), by omega⟩
    rw [tile_eq m c t r] at hk
    have e : colOf t ⟨j.val - 1024 * (t.val % 8), by omega⟩ = j := Fin.ext (by show 1024 * (t.val % 8) + (j.val - 1024 * (t.val % 8)) = j.val; omega)
    rw [e] at hk
    exact hk
  · rw [tile_eq m c t r k]
    have hk := k.isLt
    exact h (colOf t k) (by show 1024 * (t.val % 8) ≤ 1024 * (t.val % 8) + k.val; omega)
      (by show 1024 * (t.val % 8) + k.val < 1024 * (t.val % 8 + 1); omega)

theorem step_first (c : Dev nD) (t : Fin cfg0.N) (h0 : t.val % 8 = 0) (r : Fin 512) (b : EReal) :
    (outsAt0 m c t.val t.isLt).2 (ix2 r (0 : Fin 1)) ≤ b
      ↔ negInf ≤ b ∧ ∀ j : Fin 8192, j.val < 1024 * (t.val % 8 + 1) → aMasked m c (rowOf t r) j ≤ b := by
  rw [scrA m c t h0 (by omega), Pay.pay1_apply, Pay.pay3_apply, max_le_iff, tileMax_le_iff m c t r b]
  constructor
  · rintro ⟨hb, -, h⟩
    exact ⟨hb, fun j hj => h j (by omega) hj⟩
  · rintro ⟨hb, h⟩
    exact ⟨hb, hb, fun j _ hj => h j hj⟩

theorem step_later (c : Dev nD) (t : Fin cfg0.N) (h0 : ¬t.val % 8 = 0) (r : Fin 512) (b : EReal) :
    (outsAt0 m c t.val t.isLt).2 (ix2 r (0 : Fin 1)) ≤ b
      ↔ (outsAt0 m c (t.val - 1) (Nat.lt_of_le_of_lt (Nat.sub_le _ _) t.isLt)).2 (ix2 r (0 : Fin 1)) ≤ b
        ∧ negInf ≤ b ∧ ∀ j : Fin 8192, 1024 * (t.val % 8) ≤ j.val → j.val < 1024 * (t.val % 8 + 1) →
            aMasked m c (rowOf t r) j ≤ b := by
  by_cases h1 : t.val % 8 = 7
  · rw [scrC m c t h0 h1, Pay.pay1_apply, max_le_iff, tileMax_le_iff m c t r b]
  · rw [scrB m c t h0 h1, Pay.pay1_apply, max_le_iff, tileMax_le_iff m c t r b]

/-- The carried column after point n, by its upper bounds. -/
theorem scr_le_iff (c : Dev nD) : ∀ (n : ℕ) (hn : n < cfg0.N) (r : Fin 512) (b : EReal),
    (outsAt0 m c n hn).2 (ix2 r (0 : Fin 1)) ≤ b
      ↔ negInf ≤ b ∧ ∀ j : Fin 8192, j.val < 1024 * (n % 8 + 1) → aMasked m c (rowOf ⟨n, hn⟩ r) j ≤ b := by
  intro n
  induction n with
  | zero => intro hn r b; exact step_first m c ⟨0, hn⟩ rfl r b
  | succ n ih =>
    intro hn r b
    by_cases h0 : (n + 1) % 8 = 0
    · exact step_first m c ⟨n + 1, hn⟩ h0 r b
    · have hn' : n < cfg0.N := Nat.lt_of_succ_lt hn
      have hrow : rowOf ⟨n, hn'⟩ r = rowOf ⟨n + 1, hn⟩ r :=
        Fin.ext (by show 512 * (n / 8) + r.val = 512 * ((n + 1) / 8) + r.val; omega)
      refine (step_later m c ⟨n + 1, hn⟩ h0 r b).trans ?_
      rw [show (outsAt0 m c ((⟨n + 1, hn⟩ : Fin cfg0.N).val - 1) (Nat.lt_of_le_of_lt (Nat.sub_le _ _) (⟨n + 1, hn⟩ : Fin cfg0.N).isLt)).2
          = (outsAt0 m c n hn').2 from rfl, ih hn' r b, hrow]
      show (_ ∧ ∀ j : Fin 8192, j.val < 1024 * (n % 8 + 1) → _) ∧ _ ∧
        (∀ j : Fin 8192, 1024 * ((n + 1) % 8) ≤ j.val → j.val < 1024 * ((n + 1) % 8 + 1) → _) ↔ _ ∧ ∀ j : Fin 8192, j.val < 1024 * ((n + 1) % 8 + 1) → _
      have e : n % 8 + 1 = (n + 1) % 8 := by omega
      constructor
      · rintro ⟨⟨hb, h⟩, -, h'⟩
        refine ⟨hb, fun j hj => ?_⟩
        by_cases hlt : j.val < 1024 * (n % 8 + 1)
        · exact h j hlt
        · exact h' j (by rw [← e]; omega) hj
      · rintro ⟨hb, h⟩
        exact ⟨⟨hb, fun j hj => h j (by rw [← e]; omega)⟩, hb, fun j _ hj => h j hj⟩

/-! ## The stored block -/

/-- At a row block's last column tile the block stored is, at row r, the pooled distance of array row 512·(t/8) + r. -/
theorem out_last (c : Dev nD) (t : Fin cfg0.N) (h7 : t.val % 8 = 7) (r : Fin 512) :
    (outsAt0 m c t.val t.isLt).1 (ix2 r (0 : Fin 1))
      = Cert.DevConv.regionOut (V m c main_v3) (V m c main_v6) (V m c main_v7) (V m c main_v8) (V m c main_arg2)
          (ix2 (rowOf t r) (0 : Fin 1)) := by
  have h0 : ¬t.val % 8 = 0 := by omega
  have hmax : (outsAt0 m c t.val t.isLt).2 (ix2 r (0 : Fin 1))
      = maxOver negInf (fun j : Fin 8192 => aMasked m c (rowOf t r) j) := by
    refine eq_maxOver_of_le_iff fun b => ?_
    rw [scr_le_iff m c t.val t.isLt r b]
    refine and_congr_right fun _ => ⟨fun h j => h j (by have := j.isLt; omega), fun h j _ => h j⟩
  rw [outC m c t h0 h7, Pay.pay2_apply, ← scrC m c t h0 h7, hmax]
  rfl

end Cert.KernelIdeal.Region

end
-- ==== Proof.Region.lean ====
/-
  The launch's output array. Output block t/8 is written back once, after the row block's last column tile, and
  holds the pooled distances of rows 512·(t/8) … 512·(t/8) + 511; the sixteen row blocks tile the [8192,1] array,
  so after the launch the whole array is the column of pooled distances over the arrays the launch found.
-/
import proofs.«118134_j35364760715802_2_alg».proof.Proof.Accum

noncomputable section

open Idealize.ShloMosaic Idealize.ShloMosaic.TcCoe Idealize.SL.Sem Idealize.ShloMosaic.ValueIdx
open Idealize.ShloMosaic.Pipeline (Dat)

namespace Cert.KernelIdeal.Region

open Cert.KernelIdeal Cert.KernelIdeal.Gen Cert.PoolFold

variable (m : (ℓ : Loc nD τ sig) → Buf (Elt Ideal) ℓ)

/-- The column of pooled distances over the arrays as the launch finds them. -/
abbrev aOut (c : Dev nD) : S8192x1.Idx → EReal :=
  Cert.DevConv.regionOut (V m c main_v3) (V m c main_v6) (V m c main_v7) (V m c main_v8) (V m c main_arg2)

/-- What a writing point writes back is its block of that column. -/
theorem flushed_eq (c : Dev nD) (t : Fin cfg0.N) (hf : (cfg0.win 5).flush t = true) :
    (dats m 0 c).flushed 5 t = ((cfg0.win 5).blk t).view.read (Elt Ideal) (aOut m c) := by
  have h7 : t.val % 8 = 7 := (flush0_5 t).mp hf
  obtain ⟨-, -, -, -, -, -, -, -, -, -, e0, e1⟩ := idx_facts t
  show (cfg0.win 5).cut (grid0.coords t) ((dats m 0 c).after 5 t) = _
  rw [after0_5]
  refine funext fun (j : S512x1.Idx) => ?_
  rw [View.read_apply, cast_eq]
  show (outsAt0 m c t.val t.isLt).1 ((cfg0.win 5).xinj (grid0.coords t) j) = _
  have hj0 : (j 0).val < 512 := (j 0).isLt
  have hj1 : (j 1).val < 1 := (j 1).isLt
  have hx : (cfg0.win 5).xinj (grid0.coords t) j = ix2 (⟨(j 0).val, hj0⟩ : Fin 512) (0 : Fin 1) := by
    funext a
    match a with
    | ⟨0, _⟩ => rfl
    | ⟨1, _⟩ => exact Fin.ext (by show (j 1).val = 0; omega)
  refine (congrArg (outsAt0 m c t.val t.isLt).1 hx).trans ((out_last m c t h7 ⟨(j 0).val, hj0⟩).trans ?_)
  refine congrArg (aOut m c) (funext fun a => Fin.ext ?_)
  match a with
  | ⟨0, _⟩ => show 512 * (t.val / 8) + (j 0).val = win0_5.index t (0 : Fin 2) * 512 + 1 * (j 0).val; omega
  | ⟨1, _⟩ => show 0 = win0_5.index t (1 : Fin 2) * 1 + 1 * (j 1).val; omega

/-- An index of the array is in point t's block iff each coordinate is in the block's range. -/
theorem mem_blk5 (t : Fin cfg0.N) (i : S8192x1.Idx) :
    i ∈ ((cfg0.win 5).blk t).view.set ↔ ∀ a : Fin 2, win0_5.index t a * S512x1.size a ≤ (i a).val
      ∧ (i a).val < win0_5.index t a * S512x1.size a + S512x1.size a := by
  show i ∈ ((View.whole main_v9).slice (win0_5.rect t)).set ↔ _
  rw [View.set_slice_whole, Rect.mem_set_unit]
  exact Iff.rfl

/-- The output array after the launch. -/
theorem final (c : Dev nD) : (dats m 0 c).arrAt 5 cfg0.N = aOut m c :=
  (dats m 0 c).arrAt_eq_of_cover 5 (aOut m c) (fun t hf => flushed_eq m c t hf) fun i => by
    have hi0 : (i 0).val < 8192 := (i 0).isLt
    have hi1 : (i 1).val < 1 := (i 1).isLt
    have hlt : 8 * ((i 0).val / 512) + 7 < cfg0.N := by rw [N128]; omega
    obtain ⟨-, -, -, -, -, -, -, -, -, -, e0, e1⟩ := idx_facts ⟨8 * ((i 0).val / 512) + 7, hlt⟩
    refine ⟨⟨8 * ((i 0).val / 512) + 7, hlt⟩, (flush0_5 _).mpr (by show (8 * ((i 0).val / 512) + 7) % 8 = 7; omega), ?_⟩
    rw [mem_blk5]
    intro a
    match a with
    | ⟨0, _⟩ =>
      show win0_5.index ⟨8 * ((i 0).val / 512) + 7, hlt⟩ (0 : Fin 2) * 512 ≤ (i 0).val
        ∧ (i 0).val < win0_5.index ⟨8 * ((i 0).val / 512) + 7, hlt⟩ (0 : Fin 2) * 512 + 512
      rw [e0]
      show (8 * ((i 0).val / 512) + 7) / 8 * 512 ≤ (i 0).val ∧ (i 0).val < (8 * ((i 0).val / 512) + 7) / 8 * 512 + 512
      omega
    | ⟨1, _⟩ =>
      show win0_5.index ⟨8 * ((i 0).val / 512) + 7, hlt⟩ (1 : Fin 2) * 1 ≤ (i 1).val
        ∧ (i 1).val < win0_5.index ⟨8 * ((i 0).val / 512) + 7, hlt⟩ (1 : Fin 2) * 1 + 1
      rw [e1]
      omega

end Cert.KernelIdeal.Region

end
-- ==== Proof.KernelHost.lean ====
/-
  The operations of the program around its one tiled region, read as mathematics.

  Before the region ten operations prepare what the region reads: the weight column [3,1] is reshaped to a
  vector, made a row and repeated for every node; the node table is multiplied by it entry by entry, giving
  the scaled coordinates y(i,k) = nodes(i,k) · w(k); their squares are summed along k from the zero word,
  giving the squared norms sq(i); the table is transposed, and the norms are reshaped once to a column
  [8192,1] and once to a row [1,8192].  Each of these arrays is read here at an index: the table holds
  y(i,k) at (i,k), its transpose y(j,k) at (k,j), the column and the row hold sq at their one long
  coordinate, and the adjacency array is the argument itself.

  After the region eleven operations turn its column r [8192,1] into the result: the column is reshaped to a
  vector, the 32 weights of W_phi are summed from the zero word and divided by 32 (their mean, a rank-0
  array), the mean is repeated for every node, and the result at node i is
  (prev(i) + r(i,0) · mean) · ½.  When the region's column holds the pooled distance of every node — the
  hypothesis of the last theorem, proved elsewhere — this is the score of node i, and the run of the whole
  program ends with that array in its result buffer and with its five arguments unchanged.
-/
import proofs.«118134_j35364760715802_2_alg».proof.Proof.Spec
import proofs.«118134_j35364760715802_2_alg».proof.Proof.LibRowBlocks
import proofs.«118134_j35364760715802_2_alg».proof.Proof.LibPoolFold
import proofs.«118134_j35364760715802_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HostSide

open Cert.KernelIdeal Cert.KernelIdeal.Gen
open Idealize.ShloMosaic Idealize.ShloMosaic.TcCoe Idealize.SL.Sem Idealize.ShloMosaic.StableHlo
open Idealize.ShloMosaic.ValueIdx

/-! ## The operations before the region, as functions of the node table and the weight column -/

section Before
variable (x1 : FVec Ideal S8192x3 .f32) (x4 : FVec Ideal S3x1 .f32)

/-- The weight column [3,1] as a vector [3]. -/
def wVec : FVec Ideal S3 .f32 := shapeCast S3 x4 shapeCasts_S3x1_S3
/-- The weights as a row [1,3]. -/
def wRow : FVec Ideal S1x3 .f32 := broadcastInDim S1x3 ![1] bcast_S3_S1x3_1 (wVec x4)
/-- The row repeated for every node: [8192,3]. -/
def wTab : FVec Ideal S8192x3 .f32 := broadcastInDim S8192x3 ![0, 1] bcast_S1x3_S8192x3_0_1 (wRow x4)
/-- The scaled coordinates, nodes times weights entry by entry. -/
def yTab : FVec Ideal S8192x3 .f32 := mulf x1 (wTab x4)
/-- Their squares. -/
def ySq : FVec Ideal S8192x3 .f32 := mulf (yTab x1 x4) (yTab x1 x4)
/-- The squared norm of each row, summed from the zero word. -/
def sqVec : FVec Ideal S8192 .f32 :=
  Host.reduceAdd (F := Ideal) (ySq x1 x4) (constant (F := Ideal) S_ .f32 0x00000000#32) reducesTo_S8192x3_S8192_d1 h_S_
/-- The scaled coordinates transposed: [3,8192]. -/
def yTr : FVec Ideal S3x8192 .f32 := transpose S3x8192 [1, 0] (yTab x1 x4) transposes_S8192x3_S3x8192_1_0
/-- The squared norms as a column [8192,1]. -/
def sqCol : FVec Ideal S8192x1 .f32 := shapeCast S8192x1 (sqVec x1 x4) shapeCasts_S8192_S8192x1
/-- The squared norms as a row [1,8192]. -/
def sqRow : FVec Ideal S1x8192 .f32 := shapeCast S1x8192 (sqVec x1 x4) shapeCasts_S8192_S1x8192

/-- Entry k of the weight vector is entry (k,0) of the weight column. -/
theorem wVec_apply (k : Fin 3) : wVec x4 (ix1 k) = x4 (ix2 k (0 : Fin 1)) := by
  unfold wVec
  exact shapeCast_apply x4 shapeCasts_S3x1_S3 _ _ (by
    rw [Shape.rowMajor_val_two, Shape.rowMajor_val_one]
    show k.val * 1 + 0 = k.val
    omega)

/-- The row at (0,k) is the vector at k. -/
theorem wRow_apply (u : Fin 1) (k : Fin 3) : wRow x4 (ix2 u k) = wVec x4 (ix1 k) := by
  unfold wRow
  exact broadcastInDim_apply _ bcast_S3_S1x3_1 (wVec x4) (ix2 u k) (ix1 k) (fun a => match a with
    | ⟨0, _⟩ => by show k.val = if (3 : Nat) = 1 then 0 else k.val; rw [if_neg (by decide)])

/-- Every node's row of the repeated table is the weight row. -/
theorem wTab_apply (i : Fin 8192) (k : Fin 3) : wTab x4 (ix2 i k) = wRow x4 (ix2 (0 : Fin 1) k) := by
  unfold wTab
  exact broadcastInDim_apply _ bcast_S1x3_S8192x3_0_1 (wRow x4) (ix2 i k) (ix2 (0 : Fin 1) k) (fun a => match a with
    | ⟨0, _⟩ => by show 0 = if (1 : Nat) = 1 then 0 else i.val; rw [if_pos rfl]
    | ⟨1, _⟩ => by show k.val = if (3 : Nat) = 1 then 0 else k.val; rw [if_neg (by decide)])

/-- The scaled-coordinate table at (i,k) is y(i,k). -/
theorem yTab_apply (i : Fin 8192) (k : Fin 3) : yTab x1 x4 (ix2 i k) = Cert.DevConv.y x1 x4 i k := by
  unfold yTab Cert.DevConv.y
  rw [mulf_apply, wTab_apply, wRow_apply, wVec_apply]

/-- The transposed table at (k,j) is y(j,k). -/
theorem yTr_apply (k : Fin 3) (j : Fin 8192) : yTr x1 x4 (ix2 k j) = Cert.DevConv.y x1 x4 j k := by
  unfold yTr
  exact (transpose_ix2_apply (yTab x1 x4) transposes_S8192x3_S3x8192_1_0 k j).trans (yTab_apply x1 x4 j k)

/-- The squared norm of row i: the zero word plus the sum over k of y(i,k)². -/
theorem sqVec_apply (i : Fin 8192) : sqVec x1 x4 (ix1 i) = Cert.DevConv.sq x1 x4 i := by
  unfold sqVec Cert.DevConv.sq
  simp only [Host.reduceAdd, Ideal.hostReduceAdd_def]
  rw [Ideal.hostReduceAdd_single reducesTo_S8192x3_S8192_d1 (by decide)]
  refine congrArg (_ + ·) (Finset.sum_congr rfl fun (k : Fin 3) _ => ?_)
  have e : (Shape.Reduces.lift (by decide : S8192x3.Reduces [1] S8192) (ix1 i) k) = ix2 i k :=
    funext fun a => Fin.ext (by match a with | ⟨0, _⟩ => rfl | ⟨1, _⟩ => rfl)
  rw [e]
  show yTab x1 x4 (ix2 i k) * yTab x1 x4 (ix2 i k) = _
  rw [yTab_apply]

/-- The column at (i,0) is the squared norm of row i. -/
theorem sqCol_apply (i : Fin 8192) : sqCol x1 x4 (ix2 i (0 : Fin 1)) = Cert.DevConv.sq x1 x4 i := by
  unfold sqCol
  exact (Cert.RowBlocks.shapeCast_col_apply (sqVec x1 x4) shapeCasts_S8192_S8192x1 i 0).trans (sqVec_apply x1 x4 i)

/-- The row at (0,j) is the squared norm of row j. -/
theorem sqRow_apply (j : Fin 8192) : sqRow x1 x4 (ix2 (0 : Fin 1) j) = Cert.DevConv.sq x1 x4 j := by
  unfold sqRow
  exact (shapeCast_a_1a_apply (sqVec x1 x4) shapeCasts_S8192_S1x8192 0 j).trans (sqVec_apply x1 x4 j)

end Before

variable (m : (ℓ : Loc nD τ sig) → Buf (Elt Ideal) ℓ) (ρ : Dev nD → PrngReg)

/-! ## The arrays the region finds -/

/-- The table the region reads first is the scaled-coordinate table of the two arguments. -/
theorem V_v3_eq (c : Dev nD) :
    (V m c main_v3 : S8192x3.Idx → EReal) = yTab (m ((c : Thread nD τ).loc main_arg1)) (m ((c : Thread nD τ).loc main_arg4)) := by
  show StableHlo.after hostOps0 (fun b => m (c, b)) (Proc.devRef .tc main_v3) = _
  after_results
  rfl

/-- The second is its transpose. -/
theorem V_v6_eq (c : Dev nD) :
    (V m c main_v6 : S3x8192.Idx → EReal) = yTr (m ((c : Thread nD τ).loc main_arg1)) (m ((c : Thread nD τ).loc main_arg4)) := by
  show StableHlo.after hostOps0 (fun b => m (c, b)) (Proc.devRef .tc main_v6) = _
  after_results
  rfl

/-- The third is the column of squared norms. -/
theorem V_v7_eq (c : Dev nD) :
    (V m c main_v7 : S8192x1.Idx → EReal) = sqCol (m ((c : Thread nD τ).loc main_arg1)) (m ((c : Thread nD τ).loc main_arg4)) := by
  show StableHlo.after hostOps0 (fun b => m (c, b)) (Proc.devRef .tc main_v7) = _
  after_results
  rfl

/-- The fourth is the row of squared norms. -/
theorem V_v8_eq (c : Dev nD) :
    (V m c main_v8 : S1x8192.Idx → EReal) = sqRow (m ((c : Thread nD τ).loc main_arg1)) (m ((c : Thread nD τ).loc main_arg4)) := by
  show StableHlo.after hostOps0 (fun b => m (c, b)) (Proc.devRef .tc main_v8) = _
  after_results
  rfl

/-- The first table the region reads holds y(i,k) at (i,k). -/
theorem V_v3_apply (c : Dev nD) (i : Fin 8192) (k : Fin 3) :
    V m c main_v3 (ix2 i k) = Cert.DevConv.y (m ((c : Thread nD τ).loc main_arg1)) (m ((c : Thread nD τ).loc main_arg4)) i k :=
  (congrFun (V_v3_eq m c) (ix2 i k)).trans (yTab_apply _ _ i k)

/-- The second, its transpose, holds y(j,k) at (k,j). -/
theorem V_v6_apply (c : Dev nD) (k : Fin 3) (j : Fin 8192) :
    V m c main_v6 (ix2 k j) = Cert.DevConv.y (m ((c : Thread nD τ).loc main_arg1)) (m ((c : Thread nD τ).loc main_arg4)) j k :=
  (congrFun (V_v6_eq m c) (ix2 k j)).trans (yTr_apply _ _ k j)

/-- The column of squared norms. -/
theorem V_v7_apply (c : Dev nD) (i : Fin 8192) :
    V m c main_v7 (ix2 i (0 : Fin 1)) = Cert.DevConv.sq (m ((c : Thread nD τ).loc main_arg1)) (m ((c : Thread nD τ).loc main_arg4)) i :=
  (congrFun (V_v7_eq m c) (ix2 i (0 : Fin 1))).trans (sqCol_apply _ _ i)

/-- The row of squared norms. -/
theorem V_v8_apply (c : Dev nD) (j : Fin 8192) :
    V m c main_v8 (ix2 (0 : Fin 1) j) = Cert.DevConv.sq (m ((c : Thread nD τ).loc main_arg1)) (m ((c : Thread nD τ).loc main_arg4)) j :=
  (congrFun (V_v8_eq m c) (ix2 (0 : Fin 1) j)).trans (sqRow_apply _ _ j)

/-- The adjacency is the argument array. -/
theorem V_arg2_eq (c : Dev nD) : V m c main_arg2 = m ((c : Thread nD τ).loc main_arg2) := V_main_arg2 m c

/-! ## The operations after the region -/

section After
variable (x0 : FVec Ideal S8192 .f32) (x3 : FVec Ideal S32 .f32) (r9 : FVec Ideal S8192x1 .f32)

/-- The mean of the 32 weights, as a rank-0 array: their sum from the zero word, divided by 32. -/
def meanArr : FVec Ideal S_ .f32 :=
  Host.divf (Host.reduceAdd (F := Ideal) x3 (constant (F := Ideal) S_ .f32 0x00000000#32) reducesTo_S32_S_d0 h_S_)
    (constant (F := Ideal) S_ .f32 0x42000000#32)

/-- The eleven operations after the region, from the previous score, the 32 weights and the region's column. -/
def tail : FVec Ideal S8192 .f32 :=
  mulf (addf x0 (mulf (shapeCast S8192 r9 shapeCasts_S8192x1_S8192) (broadcastInDim S8192 ![] bcast_S_S8192 (meanArr x3))))
    (broadcastInDim S8192 ![] bcast_S_S8192 (constant (F := Ideal) S_ .f32 0x3F000000#32))

/-- The rank-0 mean is the mean of the weights. -/
theorem meanArr_apply (j : S_.Idx) : meanArr x3 j = Cert.DevConv.meanW x3 := by
  unfold meanArr Cert.DevConv.meanW
  show Ideal.div (Host.reduceAdd (F := Ideal) x3 (constant (F := Ideal) S_ .f32 0x00000000#32) reducesTo_S32_S_d0 h_S_ j)
      (Ideal.ofBits .f32 0x42000000#32) = _
  refine congrArg (Ideal.div · _) ?_
  exact Cert.PoolFold.hostReduceAdd_eq_sum x3 (constant (F := Ideal) S_ .f32 0x00000000#32) reducesTo_S32_S_d0 h_S_ j
    (fun k : Fin 32 => ix1 k) (fun a b h => by have := congrFun h (0 : Fin 1); exact this)
    (fun _ => funext fun a => a.elim0) (fun i _ => ⟨i 0, (eq_ix1 i).symm⟩)

/-- The tail at node i: the previous score plus the region's entry times the mean, halved. -/
theorem tail_apply (i : Fin 8192) :
    tail x0 x3 r9 (ix1 i) = (x0 (ix1 i) + r9 (ix2 i (0 : Fin 1)) * Cert.DevConv.meanW x3) * Cert.DevConv.half := by
  unfold tail
  rw [mulf_apply, addf_apply, mulf_apply]
  have e1 : shapeCast S8192 r9 shapeCasts_S8192x1_S8192 (ix1 i) = r9 (ix2 i (0 : Fin 1)) :=
    shapeCast_apply r9 shapeCasts_S8192x1_S8192 _ _ (by
      rw [Shape.rowMajor_val_two, Shape.rowMajor_val_one]
      show i.val * 1 + 0 = i.val
      omega)
  have e2 : broadcastInDim S8192 ![] bcast_S_S8192 (meanArr x3) (ix1 i) = Cert.DevConv.meanW x3 :=
    (broadcastInDim_apply _ bcast_S_S8192 (meanArr x3) (ix1 i) ix0 (fun a => a.elim0)).trans (meanArr_apply x3 ix0)
  have e3 : broadcastInDim S8192 ![] bcast_S_S8192 (constant (F := Ideal) S_ .f32 0x3F000000#32) (ix1 i) = Cert.DevConv.half :=
    broadcastInDim_apply _ bcast_S_S8192 (constant (F := Ideal) S_ .f32 0x3F000000#32) (ix1 i) ix0 (fun a => a.elim0)
  rw [e1, e2, e3]

end After

/-- What the operations after the region leave in the result buffer: the tail of the previous score, the 32
    weights and the column the region left in its output array. -/
theorem afterTail_v17 (c : Dev nD) :
    (Pipeline.afterTail₀ cfgs (dats m) 0 (V0 m) [hostOps1] c main_v17 : S8192.Idx → EReal)
      = tail (m ((c : Thread nD τ).loc main_arg0)) (m ((c : Thread nD τ).loc main_arg3)) ((dats m 0 c).arrAt 5 cfg0.N) := by
  unfold Pipeline.afterTail₀
  show StableHlo.after hostOps1 _ (Proc.devRef .tc main_v17) = _
  after_results
  have e0 : Pipeline.withArrays (cfgs 0).spec c (V0 m c) (fun w => (dats m 0 c).arrAt w (cfgs 0).N) (Proc.devRef .tc main_arg0)
      = m ((c : Thread nD τ).loc main_arg0) :=
    (Pipeline.withArrays_of_ne _ c (V0 m c) _ main_arg0 (by exact (by decide : ∀ w, Pipeline.arrRef spec0 w ≠ main_arg0))).trans
      (V_main_arg0 m c)
  have e3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans
      (V_main_arg3 m c)
  have e9 : Pipeline.withArrays (cfgs 0).spec c (V0 m c) (fun w => (dats m 0 c).arrAt w (cfgs 0).N) (Proc.devRef .tc main_v9)
      = (dats m 0 c).arrAt 5 cfg0.N :=
    Pipeline.withArrays_arr spec0 launch0.win.arr_inj c _ _ 5
  rw [e0, e3, e9]
  rfl

/-- The run: the result array holds the score of every node, the arguments are unchanged — given what the
    region leaves in its output array. -/
theorem run_score
    (hfinal : ∀ c : Dev nD, (dats m 0 c).arrAt 5 cfg0.N
      = Cert.DevConv.regionOut (V m c main_v3) (V m c main_v6) (V m c main_v7) (V m c main_v8) (V m c main_arg2)) :
    θ_run defs (onTc (τ := τ) (main (F := Ideal))) ⟨m, fun _ => 0, ρ⟩ (fun r => ∀ c : Dev nD,
      r.2.mem ((c.tc : Thread nD τ).loc main_v17)
          = (fun p : S8192.Idx => Cert.DevConv.scoreK (m ((c.tc : Thread nD τ).loc main_arg0)) (m ((c.tc : Thread nD τ).loc main_arg1))
              (m ((c.tc : Thread nD τ).loc main_arg4)) (m ((c.tc : Thread nD τ).loc main_arg2)) (m ((c.tc : Thread nD τ).loc main_arg3))
              ⟨(p 0).val, (p 0).isLt⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨?_,
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 4).trans (((dats m 0 c).arrAt_in 4 rfl _).trans ((A_eq m c 4).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)
  refine ((h c).2 main_v17 (Pipeline.mem_restRefs_of main_v17 (by decide) (by decide))).trans ?_
  refine (afterTail_v17 m c).trans ?_
  rw [hfinal c]
  funext p
  rw [eq_ix1 p]
  refine (tail_apply _ _ _ (p 0)).trans ?_
  unfold Cert.DevConv.scoreK
  rw [Cert.DevConv.regionOut_eq (m ((c.tc : Thread nD τ).loc main_arg1)) (m ((c.tc : Thread nD τ).loc main_arg4)) (V m c main_arg2)
    (V m c main_v3) (V m c main_v6) (V m c main_v7) (V m c main_v8)
    (V_v3_apply m c) (V_v6_apply m c) (V_v7_apply m c) (V_v8_apply m c) (p 0), V_arg2_eq m c]
  rfl

end Cert.KernelIdeal.HostSide

end
-- ==== Proof.Algebra.lean ====
/-
  The two arrangements of the score agree when the node table, W_theta and W_phi hold real numbers.

  With real inputs every scaled coordinate y(i,k), every squared norm and every squared distance is a real
  number.  The pooled maximum, started from −∞ over finitely many values each real or −∞, is below +∞; its
  maximum with 0 is a real ≥ 0, and the square root of a real ≥ 0 is a real: the pooled distance is a real μ.
  Division by the real 32 is multiplication by 1/32, a sum of reals is a real, and on the reals
  (0 + Σₖ μ·W(k))·(1/32) = μ·((0 + Σₖ W(k))·(1/32)).  Nothing is asked of the previous score.
-/
import proofs.«118134_j35364760715802_2_alg».proof.Proof.Spec
import Idealize.ShloMosaic.PureOps.Ideal.Laws

noncomputable section

open scoped BigOperators

namespace Cert.DevConv

open Idealize.ShloMosaic Idealize.ShloMosaic.ValueIdx Cert.PoolFold

/-! ## The words -/

theorem zero_eq : zero = 0 := Ideal.ofBits_zero_f32

theorem two_eq : two = ((2 : ℝ) : EReal) := by
  simp [Ideal.ofBits, Ideal.ieee, -EReal.coe_mul]; norm_num

theorem c32_eq : c32 = ((32 : ℝ) : EReal) := by
  simp [Ideal.ofBits, Ideal.ieee, -EReal.coe_mul]; norm_num

theorem negInf_eq : negInf = ⊥ := by
  simp [Ideal.ofBits, Ideal.ieee]

/-! ## Being a real number -/

/-- The extended real is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.lt_top {x : EReal} (hx : IsReal x) : x < ⊤ := by
  obtain ⟨a, rfl⟩ := hx; exact EReal.coe_lt_top a

/-- A finite sum of coerced reals is the coerced sum. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem IsReal.sum {ι : Type} (s : Finset ι) (f : ι → EReal) (h : ∀ k, IsReal (f k)) : IsReal (∑ k ∈ s, f k) := by
  choose g hg using h
  exact ⟨∑ k ∈ s, g k, by rw [coe_sum]; exact Finset.sum_congr rfl fun k _ => hg k⟩

theorem isReal_zero : IsReal zero := ⟨0, zero_eq⟩
theorem isReal_two : IsReal two := ⟨2, two_eq⟩

/-- Below +∞, the maximum with 0 is a real ≥ 0. -/
theorem max_zero_real (x : EReal) (hx : x < ⊤) : ∃ r : ℝ, 0 ≤ r ∧ max x 0 = (r : EReal) := by
  induction x using EReal.rec with
  | bot => exact ⟨0, le_refl _, by simp⟩
  | coe r => exact ⟨max r 0, le_max_right _ _, (EReal.coe_strictMono.monotone.map_max (a := r) (b := 0)).symm⟩
  | top => exact absurd hx (lt_irrefl _)

/-- The square root of a real ≥ 0 is a real. -/
theorem sqrt_real (r : ℝ) (hr : 0 ≤ r) : Ideal.sqrt (r : EReal) = ((Real.sqrt r : ℝ) : EReal) := by
  rw [Ideal.sqrt_coe, if_neg (not_lt.mpr hr)]

/-! ## The pooled distance is a real number -/

section Args
variable (prev : SN.Idx → EReal) (nodes : SN3.Idx → EReal) (wθ : S31.Idx → EReal) (A : SNN.Idx → BitVec 32)
  (W : S32.Idx → EReal)

theorem y_real (hn : ∀ p, ∃ r : ℝ, nodes p = (r : EReal)) (hw : ∀ p, ∃ r : ℝ, wθ p = (r : EReal))
    (i : Fin 8192) (k : Fin 3) : IsReal (y nodes wθ i k) :=
  IsReal.mul (hn _) (hw _)

theorem sq_real (hn : ∀ p, ∃ r : ℝ, nodes p = (r : EReal)) (hw : ∀ p, ∃ r : ℝ, wθ p = (r : EReal))
    (i : Fin 8192) : IsReal (sq nodes wθ i) :=
  IsReal.add isReal_zero (IsReal.sum _ _ fun k => IsReal.mul (y_real nodes wθ hn hw i k) (y_real nodes wθ hn hw i k))

theorem dist2_real (hn : ∀ p, ∃ r : ℝ, nodes p = (r : EReal)) (hw : ∀ p, ∃ r : ℝ, wθ p = (r : EReal))
    (i j : Fin 8192) : IsReal (dist2 nodes wθ i j) :=
  IsReal.sub (IsReal.add (sq_real nodes wθ hn hw i) (sq_real nodes wθ hn hw j))
    (IsReal.mul isReal_two
      (IsReal.add
        (IsReal.add (IsReal.mul (y_real nodes wθ hn hw i 0) (y_real nodes wθ hn hw j 0))
          (IsReal.mul (y_real nodes wθ hn hw i 1) (y_real nodes wθ hn hw j 1)))
        (IsReal.mul (y_real nodes wθ hn hw i 2) (y_real nodes wθ hn hw j 2))))

/-- The pooled maximum is below +∞: it starts at −∞ and meets only reals and −∞. -/
theorem nbrMax_lt_top (hn : ∀ p, ∃ r : ℝ, nodes p = (r : EReal)) (hw : ∀ p, ∃ r : ℝ, wθ p = (r : EReal))
    (i : Fin 8192) : nbrMax nodes wθ A i < ⊤ := by
  unfold nbrMax maxOver
  rw [Finset.fold_max_lt]
  refine ⟨by rw [negInf_eq]; exact bot_lt_top, fun j _ => ?_⟩
  unfold Scalar.select
  split_ifs
  · exact (dist2_real nodes wθ hn hw i j).lt_top
  · rw [negInf_eq]; exact bot_lt_top

/-- The pooled distance is a real number. -/
theorem mdist_real (hn : ∀ p, ∃ r : ℝ, nodes p = (r : EReal)) (hw : ∀ p, ∃ r : ℝ, wθ p = (r : EReal))
    (i : Fin 8192) : IsReal (mdist nodes wθ A i) := by
  unfold mdist
  rw [zero_eq]
  obtain ⟨r, hr, e⟩ := max_zero_real _ (nbrMax_lt_top nodes wθ A hn hw i)
  rw [e, sqrt_real r hr]
  exact ⟨_, rfl⟩

/-! ## The law -/

/-- For a real μ and reals W(k): the mean of the products is μ times the mean. -/
theorem mean_mul (μ : EReal) (hμ : IsReal μ) (hW : ∀ p, ∃ r : ℝ, W p = (r : EReal)) :
    Ideal.div (zero + ∑ k : Fin 32, μ * W (ix1 k)) c32 = μ * Ideal.div (zero + ∑ k : Fin 32, W (ix1 k)) c32 := by
  obtain ⟨m, rfl⟩ := hμ
  choose w hw using hW
  simp only [hw, zero_eq, c32_eq, Ideal.div_coe (by norm_num : (32 : ℝ) ≠ 0), ← EReal.coe_mul, ← coe_sum, zero_add]
  congr 1
  rw [← Finset.mul_sum]
  ring

theorem scoreR_eq_scoreK (hn : ∀ p, ∃ r : ℝ, nodes p = (r : EReal)) (hw : ∀ p, ∃ r : ℝ, wθ p = (r : EReal))
    (hW : ∀ p, ∃ r : ℝ, W p = (r : EReal)) (i : Fin 8192) :
    scoreR prev nodes wθ A W i = scoreK prev nodes wθ A W i := by
  unfold scoreR scoreK meanW
  rw [mean_mul W _ (mdist_real nodes wθ A hn hw i) hW]

end Args

end Cert.DevConv

end
-- ==== Proof.RefRead.lean ====
/-
  The reference program read at an index: its last stage, at row i, is the score in the arrangement
  "mean over k of (pooled distance · W_phi(k))".

  The stages are chained outermost first.  Each layout stage moves the index; composed, the moves are
  the coordinate constructors: the scaled coordinate table at (i,k) reads nodes(i,k)·w(k); the row sums
  of its squares are the squared norms; the contraction over the three coordinates is the Gram term in
  the grouping (a₀ + a₁) + a₂; the masked array is the squared distance where the adjacency entry is
  positive and −∞ elsewhere.  The row maximum is a fold over the second axis: the entries that reduce to
  row i are exactly the entries (i, j), so it is the maximum over j from the −∞ word.
-/
import proofs.«118134_j35364760715802_2_alg».proof.Proof.Spec
import proofs.«118134_j35364760715802_2_alg».proof.Proof.LibPoolFold
import proofs.«118134_j35364760715802_2_alg».proof.Proof.Gen.ReferenceIdeal.Read

noncomputable section

namespace Cert.ReferenceIdeal.RefValue

open Idealize.ShloMosaic Idealize.ShloMosaic.ValueIdx Cert.PoolFold
open Cert.ReferenceIdeal Cert.ReferenceIdeal.Gen Cert.ReferenceIdeal.Read
open Cert.DevConv (SN SN3 SNN S31 y sq dist2 nbrMax mdist scoreR negInf two zero c32 half)

variable (x0 : Cert.DevConv.SN.Idx → EReal) (x1 : Cert.DevConv.SN3.Idx → EReal) (x2 : Cert.DevConv.SNN.Idx → BitVec 32)
  (x3 : Cert.DevConv.S32.Idx → EReal) (x4 : Cert.DevConv.S31.Idx → EReal)

/-- The scaled coordinate table at (i, k). -/
theorem v3_at (i : Fin 8192) (k : Fin 3) :
    val_main_v3 (F := Ideal) x1 x4 (ix2 i k) = y x1 x4 i k := by
  rw [val_main_v3_apply, val_main_v2_apply, val_main_v1_apply, val_main_v0_apply]
  have e : idx_main_v0 (idx_main_v1 (idx_main_v2 (ix2 i k))) = ix2 k (0 : Fin 1) :=
    funext fun a => Fin.ext (by match a with | ⟨0, _⟩ => exact Nat.div_one _ | ⟨1, _⟩ => rfl)
  rw [e]
  rfl

/-- The squared norms at row i. -/
theorem v5_at (i : Fin 8192) : val_main_v5 (F := Ideal) x1 x4 (ix1 i) = sq x1 x4 i := by
  rw [val_main_v5_apply, val_main_cst_apply]
  have e : ∀ k : Fin 3, idx_main_v5 (ix1 i) k = ix2 i k := fun k =>
    funext fun a => Fin.ext (by match a with | ⟨0, _⟩ => rfl | ⟨1, _⟩ => rfl)
  simp only [e, val_main_v4_apply, v3_at, Ideal.ofBits_def, Ideal.mulf_def]
  rfl

/-- The Gram term of the pair (i, j), in the grouping (a₀ + a₁) + a₂. -/
theorem v7_at (i j : Fin 8192) :
    val_main_v7 (F := Ideal) x1 x4 (ix2 i j)
      = (y x1 x4 i 0 * y x1 x4 j 0 + y x1 x4 i 1 * y x1 x4 j 1) + y x1 x4 i 2 * y x1 x4 j 2 := by
  rw [val_main_v7_apply]
  have el : ∀ k : Fin 3, lidx_main_v7 (ix2 i j) k = ix2 i k := fun k =>
    funext fun a => Fin.ext (by match a with | ⟨0, _⟩ => rfl | ⟨1, _⟩ => rfl)
  have er : ∀ k : Fin 3, idx_main_v6 (ridx_main_v7 (ix2 i j) k) = ix2 j k := fun k =>
    funext fun a => Fin.ext (by match a with | ⟨0, _⟩ => rfl | ⟨1, _⟩ => rfl)
  simp only [el, val_main_v6_apply, er, v3_at]
  exact Fin.sum_univ_three _

/-- The squared distance of the pair (i, j). -/
theorem v15_at (i j : Fin 8192) : val_main_v15 (F := Ideal) x1 x4 (ix2 i j) = dist2 x1 x4 i j := by
  rw [val_main_v15_apply, val_main_v12_apply, val_main_v14_apply, val_main_v10_apply, val_main_v8_apply,
    val_main_v11_apply, val_main_v9_apply, val_main_v13_apply, val_main_cst_0_apply]
  have e1 : idx_main_v8 (idx_main_v10 (ix2 i j)) = ix1 i :=
    funext fun a => Fin.ext (by match a with | ⟨0, _⟩ => rfl)
  have e2 : idx_main_v9 (idx_main_v11 (ix2 i j)) = ix1 j :=
    funext fun a => Fin.ext (by match a with | ⟨0, _⟩ => rfl)
  rw [e1, e2, v5_at, v5_at, v7_at]
  rfl

/-- The masked squared distance of the pair (i, j). -/
theorem v18_at (i j : Fin 8192) :
    val_main_v18 (F := Ideal) x1 x2 x4 (ix2 i j)
      = Scalar.select (IntOp.cmpi .sgt (x2 (ix2 i j)) 0#32) (dist2 x1 x4 i j) negInf := by
  rw [val_main_v18_apply, val_main_v17_apply, val_main_v16_apply, val_main_c_apply, val_main_call0_v1_apply,
    val_main_call0_v0_apply, val_main_cst_1_apply, v15_at]
  rfl

/-- An entry (i, j) of the square array reduces, along the second axis, to row i. -/
theorem drop_row (i j : Fin 8192) : reducesTo_S8192x8192_S8192_d1.drop (ix2 i j) = ix1 i :=
  funext fun b => match b with
    | ⟨0, _⟩ => Fin.ext (reducesTo_S8192x8192_S8192_d1.drop_apply_val_of_eq (ix2 i j) 0 0)

/-- Conversely an entry that reduces to row i is (i, its column). -/
theorem eq_of_drop_row (i : Fin 8192) (p : S8192x8192.Idx) (hp : reducesTo_S8192x8192_S8192_d1.drop p = ix1 i) :
    ix2 i (p 1 : Fin 8192) = p := by
  have h0 : (p 0 : Fin 8192) = i :=
    Fin.ext ((reducesTo_S8192x8192_S8192_d1.drop_apply_val_of_eq p 0 0).symm.trans
      (congrArg (fun q : S8192.Idx => (q 0).val) hp))
  exact funext fun a => match a with
    | ⟨0, _⟩ => h0.symm
    | ⟨1, _⟩ => rfl

/-- The row maximum at row i: the greatest masked squared distance over the columns, from −∞. -/
theorem v19_at (i : Fin 8192) : val_main_v19 (F := Ideal) x1 x2 x4 (ix1 i) = nbrMax x1 x4 x2 i := by
  unfold val_main_v19
  refine (hostReduce_max_eq_maxOver (val_main_v18 (F := Ideal) x1 x2 x4) (val_main_cst_2 (F := Ideal))
    reducesTo_S8192x8192_S8192_d1 h_S_ (ix1 i) (fun j : Fin 8192 => val_main_v18 (F := Ideal) x1 x2 x4 (ix2 i j))
    (fun j => ⟨ix2 i j, drop_row i j, rfl⟩)
    (fun p hp => ⟨(p 1 : Fin 8192), congrArg (val_main_v18 (F := Ideal) x1 x2 x4) (eq_of_drop_row i p hp)⟩)).trans ?_
  rw [val_main_cst_2_apply]
  exact maxOver_congr _ (fun j => v18_at x1 x2 x4 i j)

/-- The pooled distance at row i. -/
theorem v22_at (i : Fin 8192) : val_main_v22 (F := Ideal) x1 x2 x4 (ix1 i) = mdist x1 x4 x2 i := by
  rw [val_main_v22_apply, val_main_v21_apply, val_main_v20_apply, val_main_cst_3_apply, v19_at]
  rfl

/-- The pooled distance of row i times W_phi(k). -/
theorem v27_at (i : Fin 8192) (k : Fin 32) :
    val_main_v27 (F := Ideal) x1 x2 x3 x4 (ix2 i k) = mdist x1 x4 x2 i * x3 (ix1 k) := by
  rw [val_main_v27_apply, val_main_v25_apply, val_main_v23_apply, val_main_v26_apply, val_main_v24_apply]
  have e1 : idx_main_v23 (idx_main_v25 (ix2 i k)) = ix1 i :=
    funext fun a => Fin.ext (by match a with | ⟨0, _⟩ => rfl)
  have e2 : idx_main_v24 (idx_main_v26 (ix2 i k)) = ix1 k :=
    funext fun a => Fin.ext (by match a with | ⟨0, _⟩ => rfl)
  rw [e1, e2, v22_at]
  rfl

/-- The reference's result at row i is the score, in the arrangement "mean over k of the products". -/
theorem ref_eq (i : Fin 8192) :
    Cert.ReferenceIdeal.Read.val_main_v33 (F := Ideal) x0 x1 x2 x3 x4 (ix1 i) = Cert.DevConv.scoreR x0 x1 x4 x2 x3 i := by
  rw [val_main_v33_apply, val_main_v31_apply, val_main_v30_apply, val_main_v28_apply, val_main_v29_apply,
    val_main_v32_apply, val_main_cst_4_apply, val_main_cst_5_apply, val_main_cst_6_apply]
  have e : ∀ k : Fin 32, idx_main_v28 (ix1 i) k = ix2 i k := fun k =>
    funext fun a => Fin.ext (by match a with | ⟨0, _⟩ => rfl | ⟨1, _⟩ => rfl)
  simp only [e, v27_at]
  rfl

end Cert.ReferenceIdeal.RefValue

end
-- ==== Proof.Finite.lean ====
/-
  From the precondition to "every entry of the three float tables is a real number".

  The precondition is the conjunction of four "all entries have absolute value below +∞".  A conjunction of
  one-bit words is 1 only when each is; a reduction by "and" into the one scalar entry is 1 only when every
  entry is 1; and an extended real x with max(x, −x) < +∞ is neither +∞ nor −∞, so it is a real number.
-/
import proofs.«118134_j35364760715802_2_alg».proof.Defs
import proofs.«118134_j35364760715802_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Proof.Finite

open Idealize.ShloMosaic Idealize.ShloMosaic.ValueIdx Idealize.SL.Sem

/-- The word 0x7F800000 denotes +∞. -/
theorem ofBits_posInf : Ideal.ofBits .f32 0x7F800000#32 = ⊤ := by
  simp [Ideal.ofBits, Ideal.ieee]

/-- An extended real whose absolute value is below +∞ is a real number. -/
theorem real_of_abs_lt (x : EReal)
    (h : FloatOps.cmpf (F := Ideal) (φ := .f32) .olt (FloatOps.absf (F := Ideal) (φ := .f32) x) (FloatOps.ofBits (F := Ideal) .f32 0x7F800000#32) = 1#1) :
    ∃ r : ℝ, x = (r : EReal) := by
  rw [Ideal.cmpf_def, Ideal.absf_def, Ideal.ofBits_def, ofBits_posInf] at h
  induction x using EReal.rec with
  | bot => simp [Ideal.cmp] at h
  | coe r => exact ⟨r, rfl⟩
  | top => simp [Ideal.cmp] at h

instance : Subsingleton Cert.Pre_finite_inputs.S_.Idx := ⟨fun a b => funext fun d => d.elim0⟩

open Cert.Pre_finite_inputs in
/-- If the printed predicate is 1, every entry of the three float tables it tests after the first is a real. -/
theorem fn_real [Cert.Pre_finite_inputs.Facts]
    (a0 : FVec Ideal S8192 .f32) (a1 : FVec Ideal S8192x3 .f32) (a2 : IVec S8192x8192 32)
    (a3 : FVec Ideal S32 .f32) (a4 : FVec Ideal S3x1 .f32)
    (h : fn (F := Ideal) a0 a1 a2 a3 a4 = fun _ => 1#1) :
    (∀ p, ∃ r : ℝ, a1 p = (r : EReal)) ∧ (∀ p, ∃ r : ℝ, a3 p = (r : EReal)) ∧ (∀ p, ∃ r : ℝ, a4 p = (r : EReal)) := by
  have h0 := congrFun h ValueIdx.ix0
  dsimp only [fn, fn_part1] at h0
  obtain ⟨h123, h4⟩ := IntOp.andi_eq_one.1 h0
  obtain ⟨h12, h3⟩ := IntOp.andi_eq_one.1 h123
  obtain ⟨_, h2⟩ := IntOp.andi_eq_one.1 h12
  refine ⟨fun p => real_of_abs_lt (a1 p) ?_, fun p => real_of_abs_lt (a3 p) ?_, fun p => real_of_abs_lt (a4 p) ?_⟩
  · exact Host.reduce_andi_all _ _ _ _ _ h2 p
  · exact Host.reduce_andi_all _ _ _ _ _ h3 p
  · exact Host.reduce_andi_all _ _ _ _ _ h4 p

/-- Under the precondition the node table, W_phi and W_theta hold real numbers. -/
theorem real_inputs [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ p, ∃ r : ℝ, m ((c.tc : Thread _ Cert.KernelIdeal.τ).loc Cert.KernelIdeal.main_arg1) p = (r : EReal))
    ∧ (∀ p, ∃ r : ℝ, m ((c.tc : Thread _ _).loc Cert.KernelIdeal.main_arg3) p = (r : EReal))
    ∧ (∀ p, ∃ r : ℝ, m ((c.tc : Thread _ _).loc Cert.KernelIdeal.main_arg4) p = (r : EReal)) :=
  fn_real _ _ _ _ _ (h c)

end Cert.Proof.Finite

end
-- ==== Proof.Assemble.lean ====
/-
  The five claims, the kernel's value taken as a hypothesis.

  The three frames are the generated ones (the reference's is its generated run with the result forgotten) and
  the idealization rewrote nothing.  For the value claim the kernel's run is assumed to end with the result array
  holding, at row i, the score in the arrangement "pooled distance times the mean of W_phi".  The reference's
  generated run ends with its last stage, which read at row i is the score in the other arrangement; under the
  precondition the node table, W_theta and W_phi hold real numbers, and there the two arrangements agree.
-/
import proofs.«118134_j35364760715802_2_alg».proof.Defs
import proofs.«118134_j35364760715802_2_alg».proof.Proof.Algebra
import proofs.«118134_j35364760715802_2_alg».proof.Proof.RefRead
import proofs.«118134_j35364760715802_2_alg».proof.Proof.Finite
import proofs.«118134_j35364760715802_2_alg».proof.Proof.Gen.Kernel
import proofs.«118134_j35364760715802_2_alg».proof.Proof.Gen.Kernel.Frame
import proofs.«118134_j35364760715802_2_alg».proof.Proof.Gen.KernelIdeal
import proofs.«118134_j35364760715802_2_alg».proof.Proof.Gen.KernelIdeal.Frame
import proofs.«118134_j35364760715802_2_alg».proof.Proof.Gen.ReferenceIdeal
import proofs.«118134_j35364760715802_2_alg».proof.Proof.Gen.ReferenceIdeal.Run
import proofs.«118134_j35364760715802_2_alg».proof.Proof.Gen.ReferenceIdeal.Read
import proofs.«118134_j35364760715802_2_alg».proof.Proof.Gen.Pre_finite_inputs

noncomputable section

namespace Cert.Proof.Assemble

open Idealize.ShloMosaic Idealize.ShloMosaic.TcCoe Idealize.SL.Sem Idealize.ShloMosaic.ValueIdx

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

/-- The value claim, from a run of the idealized kernel that ends with the score "pooled distance times the mean of
    W_phi" in its result array and the arguments unchanged. -/
theorem algebraic_of
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v17) = (fun p : Cert.KernelIdeal.S8192.Idx => Cert.DevConv.scoreK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) ⟨(p 0).val, (p 0).isLt⟩)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))) :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => (fun p : Cert.KernelIdeal.S8192.Idx => Cert.DevConv.scoreK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) ⟨(p 0).val, (p 0).isLt⟩), hrun m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq]
  obtain ⟨h0, h1, h2, h3, h4⟩ := hagree c
  rw [h0, h1, h2, h3, h4]
  funext p
  obtain ⟨i, rfl⟩ : ∃ i : Fin 8192, p = ix1 i := ⟨p 0, eq_ix1 p⟩
  rw [Cert.ReferenceIdeal.RefValue.ref_eq]
  obtain ⟨hn, hW, hw⟩ := Cert.Proof.Finite.real_inputs m hpre c
  exact Cert.DevConv.scoreR_eq_scoreK _ _ _ _ _ hn hw hW i

end Cert.Proof.Assemble

end
-- ==== Proof.lean ====
/-
  The claim: a tiled kernel for the neighbour-distance pooling of a weighted point cloud, and its jnp reference,
  compute the same scores on the extended reals.

  Both programs scale the node coordinates by the one column of W_theta (y = nodes · w), take the squared norms
  sq, and form for every pair of nodes the squared weighted distance through the Gram term,
  d²(i,j) = (sq(i) + sq(j)) − 2·y(i)·y(j); non-neighbours count as −∞; the pooled distance of node i is
  √(max(maxⱼ d²(i,j), 0)). The reference does this on whole [8192,8192] arrays; the kernel walks 16 row blocks
  by 8 column tiles, carrying a [512,1] column of running row maxima across a row block's tiles (reset to −∞ at
  the first, joined by max at each) and storing the root of its non-negative part after the last. A maximum of
  maxima is the maximum (carried here by upper bounds), the three-term Gram sum is spelt in the same grouping on
  both sides, and the blocks read exactly the rows and columns of the pair, so the kernel's output column is the
  pooled distance with no condition on the inputs (modules Pay, Cases, Blocks, Accum, Region; the host lines
  around the launch in KernelHost; the reference read operation by operation in RefRead).

  The two programs then differ in ONE law: the kernel multiplies the pooled distance by the mean of W_phi, the
  reference takes the mean over k of (pooled distance · W_phi(k)). On the extended reals μ·(Σₖ Wₖ / 32) =
  (Σₖ μ·Wₖ) / 32 needs μ and the Wₖ real (at μ = +∞ with W of mixed signs it fails), and this is where the
  precondition is used: finite nodes and W_theta make y, sq and every d² real, so the maximum is below +∞ and
  the root is real; W_phi is finite by the precondition itself (modules Finite and Algebra).

  The frames are the generated ones (the reference's from its generated run), and the ideal pass rewrote nothing,
  so the preservation claim is trivial. Assemble puts the reference's half and the law together; here the
  kernel's run is supplied.
-/
import proofs.«118134_j35364760715802_2_alg».proof.Defs
import proofs.«118134_j35364760715802_2_alg».proof.Proof.Region
import proofs.«118134_j35364760715802_2_alg».proof.Proof.KernelHost
import proofs.«118134_j35364760715802_2_alg».proof.Proof.Assemble

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Assemble.frame_k, Assemble.frame_ki, Assemble.frame_ri, Assemble.preserves,
    Assemble.algebraic_of fun m ρ =>
      Cert.KernelIdeal.HostSide.run_score m ρ fun c => Cert.KernelIdeal.Region.final m c⟩

end Cert.Proof

end
